-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x129 : S_.BroadcastsInDim S256x129 (![] : Fin 0 → Fin S256x129.rank)
  reducesTo_S256x129_S_d0_1 : S256x129.ReducesTo [0, 1] S_
  bcast_S_S129 : S_.BroadcastsInDim S129 (![] : Fin 0 → Fin S129.rank)
  reducesTo_S129_S_d0 : S129.ReducesTo [0] S_

variable [Facts]

def fn_part1 {F : FTy → Type} [FloatOps F] (main_arg5 : FVec F S256x129 .f32) (main_arg6 : FVec F S256x129 .f32) (main_arg7 : FVec F S129 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x129 .f32 := Host.absf main_arg5
  let main_cst_6 : FVec F S_ .f32 := constant S_ .f32 0x7F800000#32
  let main_v20 : FVec F S256x129 .f32 := broadcastInDim S256x129 ![] bcast_S_S256x129 main_cst_6
  let main_v21 : IVec S256x129 1 := cmpf .olt main_v19 main_v20
  let main_c_7 : IVec S_ 1 := constantI S_ 1 1#1
  let main_v22 : IVec S_ 1 := (fun x v => Host.reduce IntOp.andi x v reducesTo_S256x129_S_d0_1 h_S_) main_v21 main_c_7
  let main_v23 : IVec S_ 1 := andi main_v18 main_v22
  let main_v24 : FVec F S256x129 .f32 := Host.absf main_arg6
  let main_cst_8 : FVec F S_ .f32 := constant S_ .f32 0x7F800000#32
  let main_v25 : FVec F S256x129 .f32 := broadcastInDim S256x129 ![] bcast_S_S256x129 main_cst_8
  let main_v26 : IVec S256x129 1 := cmpf .olt main_v24 main_v25
  let main_c_9 : IVec S_ 1 := constantI S_ 1 1#1
  let main_v27 : IVec S_ 1 := (fun x v => Host.reduce IntOp.andi x v reducesTo_S256x129_S_d0_1 h_S_) main_v26 main_c_9
  let main_v28 : IVec S_ 1 := andi main_v23 main_v27
  let main_v29 : FVec F S129 .f32 := Host.absf main_arg7
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  main_v33

def fn {F : FTy → Type} [FloatOps F] (main_arg0 : FVec F S100000x512 .f32) (main_arg1 : IVec S2x400000 32) (main_arg2 : FVec F S512x256 .f32) (main_arg3 : FVec F S512x256 .f32) (main_arg4 : FVec F S256 .f32) (main_arg5 : FVec F S256x129 .f32) (main_arg6 : FVec F S256x129 .f32) (main_arg7 : FVec F S129 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S100000x256 : Shape := ⟨2, ![100000, 256]⟩
abbrev S2000x512 : Shape := ⟨2, ![2000, 512]⟩
abbrev S2000x256 : Shape := ⟨2, ![2000, 256]⟩
abbrev S400000x256 : Shape := ⟨2, ![400000, 256]⟩
abbrev S1x256 : Shape := ⟨2, ![1, 256]⟩
abbrev S2000x1 : Shape := ⟨2, ![2000, 1]⟩
abbrev S100000x129 : Shape := ⟨2, ![100000, 129]⟩
abbrev S2000x129 : Shape := ⟨2, ![2000, 129]⟩
abbrev S400000x129 : Shape := ⟨2, ![400000, 129]⟩
abbrev S1x129 : Shape := ⟨2, ![1, 129]⟩
abbrev S2000 : Shape := ⟨1, ![2000]⟩

abbrev nBuf : Space → Nat
  | .hbm => 59
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x129, .f32⟩
  | .hbm, ⟨6, _⟩ => ⟨S256x129, .f32⟩
  | .hbm, ⟨7, _⟩ => ⟨S129, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S100000, .f32⟩
  | .hbm, ⟨16, _⟩ => ⟨S400000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x256, .bf16⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x256, .bf16⟩
  | .hbm, ⟨35, _⟩ => ⟨S400000x256, .f32⟩
  | .hbm, ⟨36, _⟩ => ⟨S_, .f32⟩
  | .hbm, ⟨37, _⟩ => ⟨S100000x256, .f32⟩
  | .hbm, ⟨38, _⟩ => ⟨S400000x1, .i32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x129, .bf16⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000x129, .bf16⟩
  | .hbm, ⟨52, _⟩ => ⟨S400000x129, .f32⟩
  | .hbm, ⟨53, _⟩ => ⟨S_, .f32⟩
  | .hbm, ⟨54, _⟩ => ⟨S100000x129, .f32⟩
  | .hbm, ⟨55, _⟩ => ⟨S400000x1, .i32⟩
  | .hbm, ⟨56, _⟩ => ⟨S100000x129, .f32⟩
  | .hbm, ⟨57, _⟩ => ⟨S1x129, .f32⟩
  | .hbm, ⟨58, _⟩ => ⟨S100000x129, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S2000x512, .f32⟩
  | .local _ .vmem, ⟨6, _⟩ => ⟨S2000x512, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S512x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x129, .f32⟩
  | .local _ .vmem, ⟨18, _⟩ => ⟨S2000x129, .bf16⟩
  | .local _ .vmem, ⟨19, _⟩ => ⟨S2000x129, .bf16⟩
  | .local _ .vmem, ⟨20, _⟩ => ⟨S2000x256, .f32⟩
  | .local _ .vmem, ⟨21, _⟩ => ⟨S2000x256, .f32⟩
  | .local _ .vmem, ⟨22, _⟩ => ⟨S2000x129, .f32⟩
  | .local _ .vmem, ⟨23, _⟩ => ⟨S2000x129, .f32⟩
  | .local _ .vmem, ⟨24, _⟩ => ⟨S2000x1, .f32⟩
  | .local _ .vmem, ⟨25, _⟩ => ⟨S2000x1, .f32⟩
  | .local _ .vmem, ⟨26, _⟩ => ⟨S256x129, .f32⟩
  | .local _ .vmem, ⟨27, _⟩ => ⟨S1x129, .f32⟩
  | .local _ .vmem, ⟨28, _⟩ => ⟨S2000x129, .f32⟩
  | .local _ .vmem, ⟨29, _⟩ => ⟨S2000x129, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x129 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x129 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x129 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x129 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x129 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x129 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x129_S256x129_0_0 : ∀ a, (![0, 0] : Fin 2 → Nat) a + S256x129.size a ≤ S256x129.size a
  h_S256x129 : 0 < S256x129.numel
  inb_S2000x129_S2000x129_0_0 : ∀ a, (![0, 0] : Fin 2 → Nat) a + S2000x129.size a ≤ S2000x129.size a
  h_S2000x129 : 0 < S2000x129.numel
  packedbf16_S2000x129_S2000x129_0_0 : (Rect.unit (s := S2000x129) ![0, 0] S2000x129.size inb_S2000x129_S2000x129_0_0).PackedRows (EltTy.packing .bf16)
  bcast_S_S100000x129 : S_.BroadcastsInDim S100000x129 (![] : Fin 0 → Fin S100000x129.rank)
  shapeCasts_S129_S1x129 : S129.ShapeCasts S1x129
  shapeCasts_S2000x129_S2000x129 : S2000x129.ShapeCasts S2000x129
  broadcasts_S2000x1_S2000x129 : S2000x1.Broadcasts S2000x129
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S2000x129 : S1x129.Broadcasts S2000x129
  reduces_S2000x129_S2000 : S2000x129.Reduces [1] S2000
  shapeCasts_S2000_S2000x1 : S2000.ShapeCasts S2000x1
  scatter_S100000_S400000x1_S400000_n_0_0_1_wf : ScatterDims.WF S100000 S400000x1 S400000 [] [0] [0] 1
  dot_S2000x512_S512x256_S2000x256_1_0_0_1_n_n_wf : DotDims.WF S2000x512 S512x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x129_S2000x129_1_0_0_1_n_n_wf : DotDims.WF S2000x256 S256x129 S2000x129 [1] [0] [0] [1] [] []
  gather_S100000x129_S400000x1_S400000x129_1_0_n_n_0_1_1129_wf : GatherDims.WF S100000x129 S400000x1 S400000x129 [1] [0] [] [0] [] 1 ![1, 129]
  scatter_S100000x129_S400000x1_S400000x129_1_0_0_1_wf : ScatterDims.WF S100000x129 S400000x1 S400000x129 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .bf16 = 32 ∨ (Rect.block (s := S100000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x129.size a ≤ S256x129.size a
  hwx2_1 : ∀ i : grid2.Coords, EltTy.bits .f32 = 32 ∨ (Rect.block (s := S256x129) S256x129.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x129.size a ≤ S100000x129.size a
  hwx2_2 : ∀ i : grid2.Coords, EltTy.bits .bf16 = 32 ∨ (Rect.block (s := S100000x129) S2000x129.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x129.size a ≤ S100000x129.size a
  hwx3_1 : ∀ i : grid3.Coords, EltTy.bits .f32 = 32 ∨ (Rect.block (s := S100000x129) S2000x129.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x129.size a ≤ S256x129.size a
  hwx3_3 : ∀ i : grid3.Coords, EltTy.bits .f32 = 32 ∨ (Rect.block (s := S256x129) S256x129.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x129.size a ≤ S1x129.size a
  hwx3_4 : ∀ i : grid3.Coords, EltTy.bits .f32 = 32 ∨ (Rect.block (s := S1x129) S1x129.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x129.size a ≤ S100000x129.size a
  hwx3_5 : ∀ i : grid3.Coords, EltTy.bits .f32 = 32 ∨ (Rect.block (s := S100000x129) S2000x129.size (cc3_transform_5 i) (hinb3_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x129_S2000x129_1_0_0_1_n_n : DotDims S2000x256 S256x129 S2000x129 where
  lhsContracting := [1]
  rhsContracting := [0]
  lhsNonContracting := [0]
  rhsNonContracting := [1]
  lhsBatch := []
  rhsBatch := []
  wf := dot_S2000x256_S256x129_S2000x129_1_0_0_1_n_n_wf
def gather_S100000x129_S400000x1_S400000x129_1_0_n_n_0_1_1129 : GatherDims S100000x129 S400000x1 S400000x129 where
  offsetDims := [1]
  collapsedSliceDims := [0]
  operandBatchingDims := []
  startIndicesBatchingDims := []
  startIndexMap := [0]
  indexVectorDim := 1
  sliceSizes := ![1, 129]
  wf := gather_S100000x129_S400000x1_S400000x129_1_0_n_n_0_1_1129_wf
def scatter_S100000x129_S400000x1_S400000x129_1_0_0_1 : ScatterDims S100000x129 S400000x1 S400000x129 where
  updateWindowDims := [1]
  insertedWindowDims := [0]
  scatterDimsToOperandDims := [0]
  indexVectorDim := 1
  wf := scatter_S100000x129_S400000x1_S400000x129_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x129.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x129.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S2000x129.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S256x129.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x129.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S2000x129.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S100000x129 : Shape := ⟨2, ![100000, 129]⟩
abbrev S1x129 : Shape := ⟨2, ![1, 129]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x129, .f32⟩
  | .hbm, ⟨6, _⟩ => ⟨S256x129, .f32⟩
  | .hbm, ⟨7, _⟩ => ⟨S129, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S_, .f32⟩
  | .hbm, ⟨22, _⟩ => ⟨S100000x512, .f32⟩
  | .hbm, ⟨23, _⟩ => ⟨S400000x1, .i32⟩
  | .hbm, ⟨24, _⟩ => ⟨S100000x512, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S100000, .f32⟩
  | .hbm, ⟨29, _⟩ => ⟨S400000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x256, .f32⟩
  | .hbm, ⟨55, _⟩ => ⟨S_, .f32⟩
  | .hbm, ⟨56, _⟩ => ⟨S100000x256, .f32⟩
  | .hbm, ⟨57, _⟩ => ⟨S400000x1, .i32⟩
  | .hbm, ⟨58, _⟩ => ⟨S100000x256, .f32⟩
  | .hbm, ⟨59, _⟩ => ⟨S_, .f32⟩
  | .hbm, ⟨60, _⟩ => ⟨S400000, .f32⟩
  | .hbm, ⟨61, _⟩ => ⟨S_, .f32⟩
  | .hbm, ⟨62, _⟩ => ⟨S100000, .f32⟩
  | .hbm, ⟨63, _⟩ => ⟨S400000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S100000x129, .f32⟩
  | .hbm, ⟨72, _⟩ => ⟨S1x129, .f32⟩
  | .hbm, ⟨73, _⟩ => ⟨S100000x129, .f32⟩
  | .hbm, ⟨74, _⟩ => ⟨S100000x129, .f32⟩
  | .hbm, ⟨75, _⟩ => ⟨S100000x129, .f32⟩
  | .hbm, ⟨76, _⟩ => ⟨S100000x129, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x129, .f32⟩
  | .hbm, ⟨84, _⟩ => ⟨S100000x129, .f32⟩
  | .hbm, ⟨85, _⟩ => ⟨S100000x129, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x129, .f32⟩
  | .hbm, ⟨91, _⟩ => ⟨S100000x129, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S129_S1x129_1 : S129.BroadcastsInDim S1x129 (![1] : Fin 1 → Fin S1x129.rank)
  bcast_S1x129_S100000x129_0_1 : S1x129.BroadcastsInDim S100000x129 (![0, 1] : Fin 2 → Fin S100000x129.rank)
  reducesTo_S100000x129_S100000_d1 : S100000x129.ReducesTo [1] S100000
  h_S_ : 0 < S_.numel
  bcast_S100000x1_S100000x129_0_1 : S100000x1.BroadcastsInDim S100000x129 (![0, 1] : Fin 2 → Fin S100000x129.rank)
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  scatter_S100000_S400000x1_S400000_n_0_0_1_wf : ScatterDims.WF S100000 S400000x1 S400000 [] [0] [0] 1
  dot_S100000x512_S512x256_S100000x256_1_0_0_1_n_n_wf : DotDims.WF S100000x512 S512x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x129_S100000x129_1_0_0_1_n_n_wf : DotDims.WF S100000x256 S256x129 S100000x129 [1] [0] [0] [1] [] []

variable [Facts₀]

def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x129_S100000x129_1_0_0_1_n_n : DotDims S100000x256 S256x129 S100000x129 where
  lhsContracting := [1]
  rhsContracting := [0]
  lhsNonContracting := [0]
  rhsNonContracting := [1]
  lhsBatch := []
  rhsBatch := []
  wf := dot_S100000x256_S256x129_S100000x129_1_0_0_1_n_n_wf

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«174269_j52905407152430_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«174269_j52905407152430_2_alg».proof.Proof.LibRows
import proofs.«174269_j52905407152430_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Spec.lean ====
/-
  Two layers of mean-aggregating graph convolution followed by a row-wise log-softmax, as functions of
  the argument arrays, index by index, over the extended reals — in the two arrangements the two programs
  compute — and the law that joins them.

  For a node feature matrix `x : [N, K]`, weights `wl, wr : [K, C]`, a bias `b : [C]`, and edges `e` with a
  source row `row e` and a destination `dst e`, write `seg r` for the edges whose destination is `r`,
  `d r = max (#seg r) 1`. One arrangement projects first and aggregates the projected rows:
      (∑ₖ x r k · wr k c  +  (∑_{e ∈ seg r} ∑ₖ x (row e) k · wl k c) · (1 / d r))  +  b c,
  the other aggregates the raw rows, divides, and projects:
      ((∑ₖ ((∑_{e ∈ seg r} x (row e) k) / d r) · wl k c)  +  b c)  +  ∑ₖ x r k · wr k c.
  On real entries the two agree: a finite sum commutes with the product by `wl k c` and with the division
  by `d r ≠ 0`, and the order of the two sums can be exchanged. On the extended reals this needs every entry
  to be a real number (an infinite entry times a zero weight would break distributivity), which is what
  the finiteness of the inputs gives.
-/
import proofs.«174269_j52905407152430_2_alg».proof.Proof.LibSegmentRows
import proofs.«174269_j52905407152430_2_alg».proof.Proof.LibIdealReal
import proofs.«174269_j52905407152430_2_alg».proof.Proof.LibERealSums

noncomputable section

open Idealize.ShloMosaic Idealize.ShloMosaic.ValueIdx Cert.SegmentRows Cert.IdealReal Cert.LibERealSums

namespace Cert.Sage

/-- The float patterns of zero, one and minus infinity, as extended reals. -/
abbrev zero : EReal := Ideal.ofBits .f32 0x00000000#32
abbrev one : EReal := Ideal.ofBits .f32 0x3F800000#32
abbrev ninf : EReal := Ideal.ofBits .f32 0xFF800000#32

theorem zero_eq : zero = 0 := Ideal.ofBits_zero_f32
theorem one_eq : one = 1 := ofBits_one_f32

abbrev Mat (a b : Nat) : Type := (⟨2, ![a, b]⟩ : Shape).Idx → EReal
abbrev Row (a : Nat) : Type := (⟨1, ![a]⟩ : Shape).Idx → EReal
abbrev Col (e : Nat) : Type := IVec ⟨2, ![e, 1]⟩ 32

variable {N E K C : Nat}

/-! ## The pieces -/

/-- The number of edges into `r`, as the accumulating scatter of ones computes it. -/
def deg (dst : Col E) (r : Fin N) : EReal := zero + ∑ _e ∈ segment dst r, one

/-- The divisor of the mean: at least one. -/
def dmax (dst : Col E) (r : Fin N) : EReal := max (deg dst r) one

/-- The sum over the edges into `r` of the source rows of `y`. -/
def nsum (hN : 0 < N) (src dst : Col E) (y : Fin N → Fin C → EReal) (r : Fin N) (c : Fin C) : EReal :=
  zero + ∑ e ∈ segment dst r, y (takeRow hN src e) c

/-- The matrix product at an entry. -/
def proj (x : Mat N K) (w : Mat K C) (r : Fin N) (c : Fin C) : EReal := ∑ k : Fin K, x (ix2 r k) * w (ix2 k c)

/-- Project, aggregate, scale by the reciprocal. -/
def layerK (hN : 0 < N) (src dst : Col E) (x : Mat N K) (wl wr : Mat K C) (b : Row C) (r : Fin N) (c : Fin C) : EReal :=
  (proj x wr r c + nsum hN src dst (proj x wl) r c * Ideal.div one (dmax dst r)) + b (ix1 c)

/-- Aggregate, divide, project. -/
def layerR (hN : 0 < N) (src dst : Col E) (x : Mat N K) (wl wr : Mat K C) (b : Row C) (r : Fin N) (c : Fin C) : EReal :=
  ((∑ k : Fin K, Ideal.div (nsum hN src dst (fun n k => x (ix2 n k)) r k) (dmax dst r) * wl (ix2 k c)) + b (ix1 c))
    + proj x wr r c

/-- The rectifier, as an array. -/
def reluArr (f : Fin N → Fin C → EReal) : Mat N C := fun i => max (f (i 0) (i 1)) zero

/-- The log-softmax of one row. -/
def lsm (L : Fin C → EReal) (q : Fin C) : EReal :=
  (L q - Finset.univ.fold max ninf L) - Ideal.log (∑ c : Fin C, Ideal.exp (L c - Finset.univ.fold max ninf L))

/-! ## Real entries -/

/-- A vector of reals as an array of extended reals. -/
def lift1 {n : Nat} (f : Fin n → ℝ) : Row n := fun i => ((f (i 0) : ℝ) : EReal)

theorem lift1_ix1 {n : Nat} (f : Fin n → ℝ) (a : Fin n) : lift1 f (ix1 a) = ((f a : ℝ) : EReal) := rfl

theorem proj_lift (X : Fin N → Fin K → ℝ) (W : Fin K → Fin C → ℝ) (r : Fin N) (c : Fin C) :
    proj (lift2 X) (lift2 W) r c = ((∑ k : Fin K, X r k * W k c : ℝ) : EReal) := by
  unfold proj
  exact sum_eq_coe _ _ _ fun k _ => by rw [lift2_ix2, lift2_ix2, ← EReal.coe_mul]

theorem nsum_coe (hN : 0 < N) (src dst : Col E) (Y : Fin N → Fin C → ℝ) (r : Fin N) (c : Fin C) :
    nsum hN src dst (fun n c => ((Y n c : ℝ) : EReal)) r c
      = ((∑ e ∈ segment dst r, Y (takeRow hN src e) c : ℝ) : EReal) := by
  unfold nsum
  rw [zero_eq, zero_add]
  exact sum_eq_coe _ _ _ fun e _ => rfl

/-- The divisor as a real number. -/
def dR (dst : Col E) (r : Fin N) : ℝ := max (∑ _e ∈ segment dst r, (1 : ℝ)) 1

theorem dR_ne (dst : Col E) (r : Fin N) : dR dst r ≠ 0 :=
  ne_of_gt (lt_of_lt_of_le one_pos (le_max_right _ _))

theorem dmax_coe (dst : Col E) (r : Fin N) : dmax dst r = ((dR dst r : ℝ) : EReal) := by
  unfold dmax deg dR
  rw [zero_eq, zero_add, one_eq, sum_eq_coe _ _ (fun _ => (1 : ℝ)) (fun _ _ => EReal.coe_one.symm), ← EReal.coe_one]
  exact (EReal.coe_strictMono.monotone.map_max).symm

/-- THE LAW. On real entries both arrangements are the same real number. -/
theorem layer_real (hN : 0 < N) (src dst : Col E) (X : Fin N → Fin K → ℝ) (Wl Wr : Fin K → Fin C → ℝ) (B : Fin C → ℝ) :
    ∃ H : Fin N → Fin C → ℝ,
      (∀ r c, layerK hN src dst (lift2 X) (lift2 Wl) (lift2 Wr) (lift1 B) r c = ((H r c : ℝ) : EReal))
      ∧ (∀ r c, layerR hN src dst (lift2 X) (lift2 Wl) (lift2 Wr) (lift1 B) r c = ((H r c : ℝ) : EReal)) := by
  refine ⟨fun r c => ((∑ k : Fin K, X r k * Wr k c)
      + (∑ e ∈ segment dst r, ∑ k : Fin K, X (takeRow hN src e) k * Wl k c) * (1 / dR dst r)) + B c, ?_, ?_⟩
  · intro r c
    unfold layerK
    have hp : (proj (lift2 X) (lift2 Wl) : Fin N → Fin C → EReal)
        = fun n c => ((∑ k : Fin K, X n k * Wl k c : ℝ) : EReal) := by
      funext n c; exact proj_lift X Wl n c
    rw [hp, nsum_coe, proj_lift, dmax_coe, one_eq, ← EReal.coe_one, div_coe_coe (dR_ne dst r), lift1_ix1,
      ← EReal.coe_mul, ← EReal.coe_add, ← EReal.coe_add]
  · intro r c
    unfold layerR
    have hx : (fun n k => lift2 X (ix2 n k) : Fin N → Fin K → EReal) = fun n k => ((X n k : ℝ) : EReal) := rfl
    have hs : ∀ k : Fin K, Ideal.div (nsum hN src dst (fun n k => lift2 X (ix2 n k)) r k) (dmax dst r) * lift2 Wl (ix2 k c)
        = (((∑ e ∈ segment dst r, X (takeRow hN src e) k) / dR dst r * Wl k c : ℝ) : EReal) := by
      intro k
      rw [hx, nsum_coe, dmax_coe, div_coe_coe (dR_ne dst r), lift2_ix2, ← EReal.coe_mul]
    rw [sum_eq_coe _ _ _ fun k _ => hs k, proj_lift, lift1_ix1, ← EReal.coe_add, ← EReal.coe_add]
    congr 1
    have : (∑ k : Fin K, (∑ e ∈ segment dst r, X (takeRow hN src e) k) / dR dst r * Wl k c)
        = (∑ e ∈ segment dst r, ∑ k : Fin K, X (takeRow hN src e) k * Wl k c) * (1 / dR dst r) := by
      rw [Finset.sum_comm, Finset.sum_mul]
      refine Finset.sum_congr rfl fun k _ => ?_
      rw [Finset.sum_div, Finset.sum_mul, Finset.sum_mul]
      refine Finset.sum_congr rfl fun e _ => ?_
      ring
    rw [this]
    ring

end Cert.Sage

end
-- ==== Proof.KernelPayloads.lean ====
/-
  What each kernel body stores, read at an entry `(p, q)` of its block, over the extended reals.

  A change of float format is the identity, a matrix product into the zero accumulator is the plain sum
  `∑ₖ x (p, k) · w (k, q)`, a column `[m, 1]` broadcast along the rows and a row `[1, n]` broadcast along the
  columns are read at their one free coordinate, a row maximum is the maximum folded over the row from
  minus infinity, and a row sum is the sum over the row. So:
  * the projection bodies store `∑ₖ x (p, k) · w (k, q)`;
  * the first combining body stores `max ((∑ₖ x (p, k) · w (k, q) + s (p, q) · d (p, 0)) + b (0, q)) 0`;
  * the second stores the log-softmax, along the row, of `(∑ₖ h (p, k) · w (k, c) + s (p, c) · d (p, 0)) + b (0, c)`.
-/
import proofs.«174269_j52905407152430_2_alg».proof.Proof.Gen.KernelIdeal.Skeleton
import proofs.«174269_j52905407152430_2_alg».proof.Proof.LibPlainMatmul
import proofs.«174269_j52905407152430_2_alg».proof.Proof.LibRowMax
import proofs.«174269_j52905407152430_2_alg».proof.Proof.LibMatrixReduce
import proofs.«174269_j52905407152430_2_alg».proof.Proof.Spec

noncomputable section

open Idealize.ShloMosaic Idealize.ShloMosaic.ValueIdx Cert.Sage

namespace Cert.Sage

/-- The log-softmax of the rows of a matrix, as the vector operations compute it: the row maximum kept as a
    column and broadcast back, the row sum of the exponentials likewise, read at `(p, q)`. -/
theorem lsmVec_apply {m n : ℕ} (hm : m ≠ 1) (v : FVec Ideal (⟨2, ![m, n]⟩ : Shape) .f32)
    (hr : (⟨2, ![m, n]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, n]⟩)
    (hφ : FKind.Formats .f32) (h1 : (0xFF800000#32 : BitVec 32) = FKind.maximumf.neutral .f32 hφ)
    (h2 : (0x00000000#32 : BitVec 32) = FKind.add.neutral .f32 hφ) (p : Fin m) (q : Fin n) :
    subf (subf v (broadcastTo ⟨2, ![m, n]⟩ (shapeCast ⟨2, ![m, 1]⟩
        (multiReduction .maximumf [1] (⟨1, ![m]⟩ : Shape) v 0xFF800000#32 hr hφ h1) hc) hb))
      (broadcastTo ⟨2, ![m, n]⟩ (log (shapeCast ⟨2, ![m, 1]⟩
        (multiReduction .add [1] (⟨1, ![m]⟩ : Shape)
          (exp (subf v (broadcastTo ⟨2, ![m, n]⟩ (shapeCast ⟨2, ![m, 1]⟩
            (multiReduction .maximumf [1] (⟨1, ![m]⟩ : Shape) v 0xFF800000#32 hr hφ h1) hc) hb)))
          0x00000000#32 hr hφ h2) hc)) hb) (ix2 p q)
      = lsm (fun c => v (ix2 p c)) q := by
  have hmax : ∀ c : Fin n, broadcastTo ⟨2, ![m, n]⟩ (shapeCast ⟨2, ![m, 1]⟩
        (multiReduction .maximumf [1] (⟨1, ![m]⟩ : Shape) v 0xFF800000#32 hr hφ h1) hc) hb (ix2 p c)
      = Finset.univ.fold max ninf (fun c => v (ix2 p c)) := fun c =>
    (Cert.LibMatrixReduce.keptCol_apply hm _ hc hb p c).trans (Cert.LibRowMax.rowMax_apply v _ hr hφ h1 p)
  rw [subf_apply, subf_apply, hmax q, Cert.Rows.bcast_col hm _ hb p q]
  show _ - Ideal.log (shapeCast ⟨2, ![m, 1]⟩ _ hc (ix2 p 0)) = _
  rw [Cert.Rows.cast_col _ hc p, Cert.LibMatrixReduce.rowSum_apply _ _ hr hφ h2 p]
  unfold lsm
  refine congrArg (fun s => _ - Ideal.log s) (Finset.sum_congr rfl fun c _ => ?_)
  show Ideal.exp (subf v _ (ix2 p c)) = _
  rw [subf_apply, hmax c]

variable {N K C : ℕ}

/-- The matrix product as an array. -/
def projArr (x : Mat N K) (w : Mat K C) : Mat N C := fun i => proj x w (i 0) (i 1)

/-- The first combining stage as an array: `max ((x · w + s ∘ d) + b) 0`, `d` a column, `b` a row. -/
def sage1Arr (x : Mat N K) (s : Mat N C) (d : Mat N 1) (w : Mat K C) (b : Mat 1 C) : Mat N C :=
  fun i => max ((proj x w (i 0) (i 1) + s (ix2 (i 0) (i 1)) * d (ix2 (i 0) 0)) + b (ix2 0 (i 1))) zero

/-- The second combining stage as an array: the row-wise log-softmax of `(h · w + s ∘ d) + b`. -/
def sage2Arr (h : Mat N K) (s : Mat N C) (d : Mat N 1) (w : Mat K C) (b : Mat 1 C) : Mat N C :=
  fun i => lsm (fun c => (proj h w (i 0) c + s (ix2 (i 0) c) * d (ix2 (i 0) 0)) + b (ix2 0 c)) (i 1)

end Cert.Sage

namespace Cert.KernelIdeal.Payloads

open Cert.KernelIdeal Cert.KernelIdeal.Gen

/-- The 512-deep product of the first layer at an entry. -/
theorem mmA (h1 h2 : (FTy.bf16).bits < (FTy.f32).bits) (x : Vec Ideal S2000x512 .f32) (w : Vec Ideal S512x256 .f32)
    (p : Fin 2000) (q : Fin 256) :
    matmul dot_S2000x512_S512x256_S2000x256_1_0_0_1_n_n none (truncf .bf16 x h1) (truncf .bf16 w h2)
      (constant (F := Ideal) S2000x256 .f32 0x00000000#32) (ix2 p q) = proj x w p q :=
  Cert.LibPlainMatmul.matmul_zero_apply (φ₁ := .bf16) (φ₂ := .bf16) dot_S2000x512_S512x256_S2000x256_1_0_0_1_n_n
    rfl rfl rfl rfl rfl rfl none (truncf .bf16 x h1) (truncf .bf16 w h2) p q

/-- The 256-deep product of the second layer at an entry. -/
theorem mmB (h1 h2 : (FTy.bf16).bits < (FTy.f32).bits) (x : Vec Ideal S2000x256 .f32) (w : Vec Ideal S256x129 .f32)
    (p : Fin 2000) (q : Fin 129) :
    matmul dot_S2000x256_S256x129_S2000x129_1_0_0_1_n_n none (truncf .bf16 x h1) (truncf .bf16 w h2)
      (constant (F := Ideal) S2000x129 .f32 0x00000000#32) (ix2 p q) = proj x w p q :=
  Cert.LibPlainMatmul.matmul_zero_apply (φ₁ := .bf16) (φ₂ := .bf16) dot_S2000x256_S256x129_S2000x129_1_0_0_1_n_n
    rfl rfl rfl rfl rfl rfl none (truncf .bf16 x h1) (truncf .bf16 w h2) p q

/-- The first projection body: `x · w` at `(p, q)`. -/
theorem pay0 (x : Vec Ideal S2000x512 .f32) (w : Vec Ideal S512x256 .f32) (p : Fin 2000) (q : Fin 256) :
    k0_pay1 (F := Ideal) x w (ix2 p q) = proj x w p q := by
  unfold k0_pay1
  exact mmA _ _ x w p q

/-- The second projection body: `h · w` at `(p, q)`. -/
theorem pay2 (h : Vec Ideal S2000x256 .f32) (w : Vec Ideal S256x129 .f32) (p : Fin 2000) (q : Fin 129) :
    k2_pay1 (F := Ideal) h w (ix2 p q) = proj h w p q := by
  unfold k2_pay1
  rw [shapeCast_self]
  exact mmB _ _ h w p q

/-- The first combining body at `(p, q)`. -/
theorem pay1 (s : Vec Ideal S2000x256 .f32) (d : Vec Ideal S2000x1 .f32) (x : Vec Ideal S2000x512 .f32)
    (w : Vec Ideal S512x256 .f32) (b : Vec Ideal S1x256 .f32) (p : Fin 2000) (q : Fin 256) :
    k1_pay1 (F := Ideal) s d x w b (ix2 p q) = max ((proj x w p q + s (ix2 p q) * d (ix2 p 0)) + b (ix2 0 q)) zero := by
  unfold k1_pay1
  rw [shapeCast_self, shapeCast_self, shapeCast_self]
  rw [maximumf_apply, addf_apply, addf_apply, mulf_apply,
    Cert.Rows.bcast_col (by decide) d _ p q, Cert.Rows.bcast_row (by decide) b _ p q]
  exact congrArg (fun t => max ((t + s (ix2 p q) * d (ix2 p 0)) + b (ix2 0 q)) zero)
    (mmA _ _ x w p q)

/-- The logits of the second combining body at `(p, c)`. -/
def logits3 (s : Vec Ideal S2000x129 .f32) (d : Vec Ideal S2000x1 .f32) (h : Vec Ideal S2000x256 .f32)
    (w : Vec Ideal S256x129 .f32) (b : Vec Ideal S1x129 .f32) (p : Fin 2000) (c : Fin 129) : EReal :=
  (proj h w p c + s (ix2 p c) * d (ix2 p 0)) + b (ix2 0 c)

/-- The second combining body at `(p, q)`: the log-softmax of the row of logits. -/
theorem pay3 (s : Vec Ideal S2000x129 .f32) (d : Vec Ideal S2000x1 .f32) (h : Vec Ideal S2000x256 .f32)
    (w : Vec Ideal S256x129 .f32) (b : Vec Ideal S1x129 .f32) (p : Fin 2000) (q : Fin 129) :
    k3_pay1 (F := Ideal) s d h w b (ix2 p q) = lsm (logits3 s d h w b p) q := by
  unfold k3_pay1
  rw [shapeCast_self, shapeCast_self, shapeCast_self, shapeCast_self]
  refine (lsmVec_apply (by decide) _ _ _ _ _ _ _ p q).trans (congrArg (fun L => lsm L q) (funext fun c => ?_))
  unfold logits3
  rw [addf_apply, addf_apply, mulf_apply,
    Cert.Rows.bcast_col (by decide) d _ p c, Cert.Rows.bcast_row (by decide) b _ p c]
  exact congrArg (fun t => (t + s (ix2 p c) * d (ix2 p 0)) + b (ix2 0 c))
    (mmB _ _ h w p c)

/-! ## A block's entry against the whole arrays

  When row `p` of a block is row `r` of its array (and the unblocked operands are the arrays themselves), what the
  body stores at `(p, q)` is the stage's array function at `(r, q)`. -/

theorem point0 (X : Mat 100000 512) (W : Mat 512 256) (x : Vec Ideal S2000x512 .f32) (w : Vec Ideal S512x256 .f32)
    (p : Fin 2000) (q : Fin 256) (r : Fin 100000) (hx : ∀ k, x (ix2 p k) = X (ix2 r k))
    (hw : ∀ k c, w (ix2 k c) = W (ix2 k c)) :
    k0_pay1 (F := Ideal) x w (ix2 p q) = projArr X W (ix2 r q) := by
  rw [pay0]
  show proj x w p q = proj X W r q
  unfold proj
  exact Finset.sum_congr rfl fun k _ => by rw [hx k, hw k q]

theorem point2 (X : Mat 100000 256) (W : Mat 256 129) (x : Vec Ideal S2000x256 .f32) (w : Vec Ideal S256x129 .f32)
    (p : Fin 2000) (q : Fin 129) (r : Fin 100000) (hx : ∀ k, x (ix2 p k) = X (ix2 r k))
    (hw : ∀ k c, w (ix2 k c) = W (ix2 k c)) :
    k2_pay1 (F := Ideal) x w (ix2 p q) = projArr X W (ix2 r q) := by
  rw [pay2]
  show proj x w p q = proj X W r q
  unfold proj
  exact Finset.sum_congr rfl fun k _ => by rw [hx k, hw k q]

theorem point1 (X : Mat 100000 512) (S : Mat 100000 256) (D : Mat 100000 1) (W : Mat 512 256) (B : Mat 1 256)
    (s : Vec Ideal S2000x256 .f32) (d : Vec Ideal S2000x1 .f32) (x : Vec Ideal S2000x512 .f32)
    (w : Vec Ideal S512x256 .f32) (b : Vec Ideal S1x256 .f32) (p : Fin 2000) (q : Fin 256) (r : Fin 100000)
    (hx : ∀ k, x (ix2 p k) = X (ix2 r k)) (hs : ∀ c, s (ix2 p c) = S (ix2 r c)) (hd : d (ix2 p 0) = D (ix2 r 0))
    (hw : ∀ k c, w (ix2 k c) = W (ix2 k c)) (hb : ∀ c, b (ix2 0 c) = B (ix2 0 c)) :
    k1_pay1 (F := Ideal) s d x w b (ix2 p q) = sage1Arr X S D W B (ix2 r q) := by
  rw [pay1]
  show _ = max ((proj X W r q + S (ix2 r q) * D (ix2 r 0)) + B (ix2 0 q)) zero
  rw [hs q, hd, hb q]
  unfold proj
  rw [Finset.sum_congr rfl fun k _ => by rw [hx k, hw k q]]

theorem point3 (X : Mat 100000 256) (S : Mat 100000 129) (D : Mat 100000 1) (W : Mat 256 129) (B : Mat 1 129)
    (s : Vec Ideal S2000x129 .f32) (d : Vec Ideal S2000x1 .f32) (x : Vec Ideal S2000x256 .f32)
    (w : Vec Ideal S256x129 .f32) (b : Vec Ideal S1x129 .f32) (p : Fin 2000) (q : Fin 129) (r : Fin 100000)
    (hx : ∀ k, x (ix2 p k) = X (ix2 r k)) (hs : ∀ c, s (ix2 p c) = S (ix2 r c)) (hd : d (ix2 p 0) = D (ix2 r 0))
    (hw : ∀ k c, w (ix2 k c) = W (ix2 k c)) (hb : ∀ c, b (ix2 0 c) = B (ix2 0 c)) :
    k3_pay1 (F := Ideal) s d x w b (ix2 p q) = sage2Arr X S D W B (ix2 r q) := by
  rw [pay3]
  show _ = lsm (fun c => (proj X W r c + S (ix2 r c) * D (ix2 r 0)) + B (ix2 0 c)) q
  refine congrArg (fun L => lsm L q) (funext fun c => ?_)
  unfold logits3 proj
  rw [hs c, hd, hb c, Finset.sum_congr rfl fun k _ => by rw [hx k, hw k c]]

end Cert.KernelIdeal.Payloads

end
-- ==== Proof.KernelBlocks.lean ====
/-
  From blocks to arrays. Each of the four pipelines runs its body once per block of 2000 rows; the operands
  that are blocked by rows are read at row `2000 · t + p` of their arrays at point `t`, the others whole. What
  point `t` writes back is therefore block `t` of one whole-array function of the arrays the region finds, the
  row blocks tile the output array, and so the array ends holding that function.
-/
import proofs.«174269_j52905407152430_2_alg».proof.Proof.Gen.KernelIdeal.Frame
import proofs.«174269_j52905407152430_2_alg».proof.Proof.KernelPayloads
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0: the array `main_v13` after the pipeline -/

/-- The printed index maps over the grid: a row-blocked window is at block `(t, 0)` at point `t`, a whole operand at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem onto0 : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the stage's array function of the arrays the region finds. -/
theorem flushed0 (c : Dev nD) (t : Fin cfg0.N) :
    (dat0 V c).flushed 2 t = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e00, e01, e10, e11, e20, e21⟩ := idx0 t
  have ht : t.val < 50 := t.isLt
  funext j
  obtain ⟨p, q, rfl⟩ : ∃ (p : Fin 2000) (q : Fin 256), j = ix2 p q := ⟨j 0, j 1, eq_ix2 j⟩
  have hp := p.isLt
  have hq := q.isLt
  obtain ⟨r, hr⟩ : ∃ r : Fin 100000, r.val = t.val * 2000 + p.val := ⟨⟨t.val * 2000 + p.val, by omega⟩, rfl⟩
  have he : ((cfg0.win 2).blk t).view.emb (ix2 p q) = ix2 r q := by
    funext a; apply Fin.ext
    match a with
    | ⟨0, _⟩ => show win0_2.index t (0 : Fin 2) * 2000 + 1 * p.val = r.val; omega
    | ⟨1, _⟩ => show win0_2.index t (1 : Fin 2) * 256 + 1 * q.val = q.val; omega
  show k0_pay1 (iblk0 V c 0 t) (iblk0 V c 1 t) (ix2 p q) = (projArr (V c main_arg0) (V c main_arg2)) (((cfg0.win 2).blk t).view.emb (ix2 p q))
  rw [he]
  refine point0 (V c main_arg0) (V c main_arg2) (iblk0 V c 0 t) (iblk0 V c 1 t) p q r
    (fun k => by
      show V c main_arg0 (((cfg0.win 0).blk t).view.emb (ix2 p k)) = V c main_arg0 (ix2 r k)
      refine congrArg _ (funext fun a => Fin.ext ?_)
      match a with
      | ⟨0, _⟩ => show win0_0.index t (0 : Fin 2) * 2000 + 1 * p.val = r.val; omega
      | ⟨1, _⟩ => show win0_0.index t (1 : Fin 2) * 512 + 1 * (k : Fin 512).val = (k : Fin 512).val; omega)
    (fun k c' => by
      show V c main_arg2 (((cfg0.win 1).blk t).view.emb (ix2 k c')) = V c main_arg2 (ix2 k c')
      refine congrArg _ (funext fun a => Fin.ext ?_)
      match a with
      | ⟨0, _⟩ => show win0_1.index t (0 : Fin 2) * 512 + 1 * k.val = k.val; omega
      | ⟨1, _⟩ => show win0_1.index t (1 : Fin 2) * 256 + 1 * c'.val = c'.val; omega)

/-- An index is in point `t`'s block iff each coordinate is in the block's range. -/
theorem mem_blk0 (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v13).slice (win0_2.rect t)).set ↔ _
  rw [View.set_slice_whole, Rect.mem_set_unit]
  exact Iff.rfl

/-- The row blocks tile the array. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE ARRAY after region 0: the stage's function of the arrays the region finds. -/
theorem final0 (c : Dev nD) : (dat0 V c).arrAt 2 cfg0.N = projArr (V c main_arg0) (V c main_arg2) :=
  (dat0 V c).arrAt_eq_of_cover 2 _ (fun t _ => flushed0 V c t) cover0

/-! ## Region 1: the array `main_v26` after the pipeline -/

/-- The printed index maps over the grid: a row-blocked window is at block `(t, 0)` at point `t`, a whole operand at `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem onto1 : ∀ q0 : Fin 50, ∃ t : Fin cfg1.N, win1_5.index t = ![q0.val, 0] :=
  (by decide +kernel : ∀ q0 : Fin 50, ∃ t : Fin grid1.N, win1_5.index t = ![q0.val, 0])

/-- What point `t` writes back is block `t` of the stage's array function of the arrays the region finds. -/
theorem flushed1 (c : Dev nD) (t : Fin cfg1.N) :
    (dat1 V c).flushed 5 t = ((cfg1.win 5).blk t).view.read (Elt Ideal) (sage1Arr (V c main_arg0) (V c main_v24) (V c main_v12) (V c main_arg3) (V c main_v25)) := by
  show (cfg1.win 5).cut (grid1.coords t) ((dat1 V c).after 5 t) = _
  rw [after1_5]
  unfold out1_5
  rw [View.canon_unit_zero hz]
  simp only [View.ld_unit_zero (S := S2000x512) hz, View.ld_unit_zero (S := S2000x256) hz, View.ld_unit_zero (S := S2000x1) hz, View.ld_unit_zero (S := S512x256) hz, View.ld_unit_zero (S := S1x256) hz]
  obtain ⟨e00, e01, e10, e11, e20, e21, e30, e31, e40, e41, e50, e51⟩ := idx1 t
  have ht : t.val < 50 := t.isLt
  funext j
  obtain ⟨p, q, rfl⟩ : ∃ (p : Fin 2000) (q : Fin 256), j = ix2 p q := ⟨j 0, j 1, eq_ix2 j⟩
  have hp := p.isLt
  have hq := q.isLt
  obtain ⟨r, hr⟩ : ∃ r : Fin 100000, r.val = t.val * 2000 + p.val := ⟨⟨t.val * 2000 + p.val, by omega⟩, rfl⟩
  have he : ((cfg1.win 5).blk t).view.emb (ix2 p q) = ix2 r q := by
    funext a; apply Fin.ext
    match a with
    | ⟨0, _⟩ => show win1_5.index t (0 : Fin 2) * 2000 + 1 * p.val = r.val; omega
    | ⟨1, _⟩ => show win1_5.index t (1 : Fin 2) * 256 + 1 * q.val = q.val; omega
  show k1_pay1 (iblk1 V c 1 t) (iblk1 V c 2 t) (iblk1 V c 0 t) (iblk1 V c 3 t) (iblk1 V c 4 t) (ix2 p q) = (sage1Arr (V c main_arg0) (V c main_v24) (V c main_v12) (V c main_arg3) (V c main_v25)) (((cfg1.win 5).blk t).view.emb (ix2 p q))
  rw [he]
  refine point1 (V c main_arg0) (V c main_v24) (V c main_v12) (V c main_arg3) (V c main_v25) (iblk1 V c 1 t) (iblk1 V c 2 t) (iblk1 V c 0 t) (iblk1 V c 3 t) (iblk1 V c 4 t) p q r
    (fun k => by
      show V c main_arg0 (((cfg1.win 0).blk t).view.emb (ix2 p k)) = V c main_arg0 (ix2 r k)
      refine congrArg _ (funext fun a => Fin.ext ?_)
      match a with
      | ⟨0, _⟩ => show win1_0.index t (0 : Fin 2) * 2000 + 1 * p.val = r.val; omega
      | ⟨1, _⟩ => show win1_0.index t (1 : Fin 2) * 512 + 1 * (k : Fin 512).val = (k : Fin 512).val; omega)
    (fun c' => by
      show V c main_v24 (((cfg1.win 1).blk t).view.emb (ix2 p c')) = V c main_v24 (ix2 r c')
      refine congrArg _ (funext fun a => Fin.ext ?_)
      match a with
      | ⟨0, _⟩ => show win1_1.index t (0 : Fin 2) * 2000 + 1 * p.val = r.val; omega
      | ⟨1, _⟩ => show win1_1.index t (1 : Fin 2) * 256 + 1 * (c' : Fin 256).val = (c' : Fin 256).val; omega)
    (by
      show V c main_v12 (((cfg1.win 2).blk t).view.emb (ix2 p 0)) = V c main_v12 (ix2 r 0)
      refine congrArg _ (funext fun a => Fin.ext ?_)
      match a with
      | ⟨0, _⟩ => show win1_2.index t (0 : Fin 2) * 2000 + 1 * p.val = r.val; omega
      | ⟨1, _⟩ => show win1_2.index t (1 : Fin 2) * 1 + 1 * (0 : Fin 1).val = (0 : Fin 1).val; simp only [Fin.val_zero]; omega)
    (fun k c' => by
      show V c main_arg3 (((cfg1.win 3).blk t).view.emb (ix2 k c')) = V c main_arg3 (ix2 k c')
      refine congrArg _ (funext fun a => Fin.ext ?_)
      match a with
      | ⟨0, _⟩ => show win1_3.index t (0 : Fin 2) * 512 + 1 * k.val = k.val; omega
      | ⟨1, _⟩ => show win1_3.index t (1 : Fin 2) * 256 + 1 * c'.val = c'.val; omega)
    (fun c' => by
      show V c main_v25 (((cfg1.win 4).blk t).view.emb (ix2 0 c')) = V c main_v25 (ix2 0 c')
      refine congrArg _ (funext fun a => Fin.ext ?_)
      match a with
      | ⟨0, _⟩ => show win1_4.index t (0 : Fin 2) * 1 + 1 * (0 : Fin 1).val = (0 : Fin 1).val; simp only [Fin.val_zero]; omega
      | ⟨1, _⟩ => show win1_4.index t (1 : Fin 2) * 256 + 1 * c'.val = c'.val; omega)

/-- An index is in point `t`'s block iff each coordinate is in the block's range. -/
theorem mem_blk1 (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v26).slice (win1_5.rect t)).set ↔ _
  rw [View.set_slice_whole, Rect.mem_set_unit]
  exact Iff.rfl

/-- The row blocks tile the array. -/
theorem cover1 (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  obtain ⟨t, ht⟩ := onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY after region 1: the stage's function of the arrays the region finds. -/
theorem final1 (c : Dev nD) : (dat1 V c).arrAt 5 cfg1.N = sage1Arr (V c main_arg0) (V c main_v24) (V c main_v12) (V c main_arg3) (V c main_v25) :=
  (dat1 V c).arrAt_eq_of_cover 5 _ (fun t _ => flushed1 V c t) cover1

/-! ## Region 2: the array `main_v27` after the pipeline -/

/-- The printed index maps over the grid: a row-blocked window is at block `(t, 0)` at point `t`, a whole operand at `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem onto2 : ∀ q0 : Fin 50, ∃ t : Fin cfg2.N, win2_2.index t = ![q0.val, 0] :=
  (by decide +kernel : ∀ q0 : Fin 50, ∃ t : Fin grid2.N, win2_2.index t = ![q0.val, 0])

/-- What point `t` writes back is block `t` of the stage's array function of the arrays the region finds. -/
theorem flushed2 (c : Dev nD) (t : Fin cfg2.N) :
    (dat2 V c).flushed 2 t = ((cfg2.win 2).blk t).view.read (Elt Ideal) (projArr (V c main_v26) (V c main_arg5)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x129) hz]
  obtain ⟨e00, e01, e10, e11, e20, e21⟩ := idx2 t
  have ht : t.val < 50 := t.isLt
  funext j
  obtain ⟨p, q, rfl⟩ : ∃ (p : Fin 2000) (q : Fin 129), j = ix2 p q := ⟨j 0, j 1, eq_ix2 j⟩
  have hp := p.isLt
  have hq := q.isLt
  obtain ⟨r, hr⟩ : ∃ r : Fin 100000, r.val = t.val * 2000 + p.val := ⟨⟨t.val * 2000 + p.val, by omega⟩, rfl⟩
  have he : ((cfg2.win 2).blk t).view.emb (ix2 p q) = ix2 r q := by
    funext a; apply Fin.ext
    match a with
    | ⟨0, _⟩ => show win2_2.index t (0 : Fin 2) * 2000 + 1 * p.val = r.val; omega
    | ⟨1, _⟩ => show win2_2.index t (1 : Fin 2) * 129 + 1 * q.val = q.val; omega
  show k2_pay1 (iblk2 V c 0 t) (iblk2 V c 1 t) (ix2 p q) = (projArr (V c main_v26) (V c main_arg5)) (((cfg2.win 2).blk t).view.emb (ix2 p q))
  rw [he]
  refine point2 (V c main_v26) (V c main_arg5) (iblk2 V c 0 t) (iblk2 V c 1 t) p q r
    (fun k => by
      show V c main_v26 (((cfg2.win 0).blk t).view.emb (ix2 p k)) = V c main_v26 (ix2 r k)
      refine congrArg _ (funext fun a => Fin.ext ?_)
      match a with
      | ⟨0, _⟩ => show win2_0.index t (0 : Fin 2) * 2000 + 1 * p.val = r.val; omega
      | ⟨1, _⟩ => show win2_0.index t (1 : Fin 2) * 256 + 1 * (k : Fin 256).val = (k : Fin 256).val; omega)
    (fun k c' => by
      show V c main_arg5 (((cfg2.win 1).blk t).view.emb (ix2 k c')) = V c main_arg5 (ix2 k c')
      refine congrArg _ (funext fun a => Fin.ext ?_)
      match a with
      | ⟨0, _⟩ => show win2_1.index t (0 : Fin 2) * 256 + 1 * k.val = k.val; omega
      | ⟨1, _⟩ => show win2_1.index t (1 : Fin 2) * 129 + 1 * c'.val = c'.val; omega)

/-- An index is in point `t`'s block iff each coordinate is in the block's range. -/
theorem mem_blk2 (t : Fin cfg2.N) (i : S100000x129.Idx) :
    i ∈ ((cfg2.win 2).blk t).view.set ↔ ∀ a : Fin 2, win2_2.index t a * S2000x129.size a ≤ (i a).val ∧ (i a).val < win2_2.index t a * S2000x129.size a + S2000x129.size a := by
  show i ∈ ((View.whole main_v27).slice (win2_2.rect t)).set ↔ _
  rw [View.set_slice_whole, Rect.mem_set_unit]
  exact Iff.rfl

/-- The row blocks tile the array. -/
theorem cover2 (i : S100000x129.Idx) :
    ∃ t : Fin cfg2.N, (cfg2.win 2).flush t = true ∧ i ∈ ((cfg2.win 2).blk t).view.set := by
  have hi0 : (i 0).val < 100000 := (i 0).isLt
  have hi1 : (i 1).val < 129 := (i 1).isLt
  obtain ⟨t, ht⟩ := onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 129 ≤ (i 1).val ∧ (i 1).val < win2_2.index t (1 : Fin 2) * 129 + 129; omega

/-- THE ARRAY after region 2: the stage's function of the arrays the region finds. -/
theorem final2 (c : Dev nD) : (dat2 V c).arrAt 2 cfg2.N = projArr (V c main_v26) (V c main_arg5) :=
  (dat2 V c).arrAt_eq_of_cover 2 _ (fun t _ => flushed2 V c t) cover2

/-! ## Region 3: the array `main_v40` after the pipeline -/

/-- The printed index maps over the grid: a row-blocked window is at block `(t, 0)` at point `t`, a whole operand at `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Every row block is some point's. -/
theorem onto3 : ∀ q0 : Fin 50, ∃ t : Fin cfg3.N, win3_5.index t = ![q0.val, 0] :=
  (by decide +kernel : ∀ q0 : Fin 50, ∃ t : Fin grid3.N, win3_5.index t = ![q0.val, 0])

/-- What point `t` writes back is block `t` of the stage's array function of the arrays the region finds. -/
theorem flushed3 (c : Dev nD) (t : Fin cfg3.N) :
    (dat3 V c).flushed 5 t = ((cfg3.win 5).blk t).view.read (Elt Ideal) (sage2Arr (V c main_v26) (V c main_v38) (V c main_v12) (V c main_arg6) (V c main_v39)) := by
  show (cfg3.win 5).cut (grid3.coords t) ((dat3 V c).after 5 t) = _
  rw [after3_5]
  unfold out3_5
  rw [View.canon_unit_zero hz]
  simp only [View.ld_unit_zero (S := S2000x256) hz, View.ld_unit_zero (S := S2000x129) hz, View.ld_unit_zero (S := S2000x1) hz, View.ld_unit_zero (S := S256x129) hz, View.ld_unit_zero (S := S1x129) hz]
  obtain ⟨e00, e01, e10, e11, e20, e21, e30, e31, e40, e41, e50, e51⟩ := idx3 t
  have ht : t.val < 50 := t.isLt
  funext j
  obtain ⟨p, q, rfl⟩ : ∃ (p : Fin 2000) (q : Fin 129), j = ix2 p q := ⟨j 0, j 1, eq_ix2 j⟩
  have hp := p.isLt
  have hq := q.isLt
  obtain ⟨r, hr⟩ : ∃ r : Fin 100000, r.val = t.val * 2000 + p.val := ⟨⟨t.val * 2000 + p.val, by omega⟩, rfl⟩
  have he : ((cfg3.win 5).blk t).view.emb (ix2 p q) = ix2 r q := by
    funext a; apply Fin.ext
    match a with
    | ⟨0, _⟩ => show win3_5.index t (0 : Fin 2) * 2000 + 1 * p.val = r.val; omega
    | ⟨1, _⟩ => show win3_5.index t (1 : Fin 2) * 129 + 1 * q.val = q.val; omega
  show k3_pay1 (iblk3 V c 1 t) (iblk3 V c 2 t) (iblk3 V c 0 t) (iblk3 V c 3 t) (iblk3 V c 4 t) (ix2 p q) = (sage2Arr (V c main_v26) (V c main_v38) (V c main_v12) (V c main_arg6) (V c main_v39)) (((cfg3.win 5).blk t).view.emb (ix2 p q))
  rw [he]
  refine point3 (V c main_v26) (V c main_v38) (V c main_v12) (V c main_arg6) (V c main_v39) (iblk3 V c 1 t) (iblk3 V c 2 t) (iblk3 V c 0 t) (iblk3 V c 3 t) (iblk3 V c 4 t) p q r
    (fun k => by
      show V c main_v26 (((cfg3.win 0).blk t).view.emb (ix2 p k)) = V c main_v26 (ix2 r k)
      refine congrArg _ (funext fun a => Fin.ext ?_)
      match a with
      | ⟨0, _⟩ => show win3_0.index t (0 : Fin 2) * 2000 + 1 * p.val = r.val; omega
      | ⟨1, _⟩ => show win3_0.index t (1 : Fin 2) * 256 + 1 * (k : Fin 256).val = (k : Fin 256).val; omega)
    (fun c' => by
      show V c main_v38 (((cfg3.win 1).blk t).view.emb (ix2 p c')) = V c main_v38 (ix2 r c')
      refine congrArg _ (funext fun a => Fin.ext ?_)
      match a with
      | ⟨0, _⟩ => show win3_1.index t (0 : Fin 2) * 2000 + 1 * p.val = r.val; omega
      | ⟨1, _⟩ => show win3_1.index t (1 : Fin 2) * 129 + 1 * (c' : Fin 129).val = (c' : Fin 129).val; omega)
    (by
      show V c main_v12 (((cfg3.win 2).blk t).view.emb (ix2 p 0)) = V c main_v12 (ix2 r 0)
      refine congrArg _ (funext fun a => Fin.ext ?_)
      match a with
      | ⟨0, _⟩ => show win3_2.index t (0 : Fin 2) * 2000 + 1 * p.val = r.val; omega
      | ⟨1, _⟩ => show win3_2.index t (1 : Fin 2) * 1 + 1 * (0 : Fin 1).val = (0 : Fin 1).val; simp only [Fin.val_zero]; omega)
    (fun k c' => by
      show V c main_arg6 (((cfg3.win 3).blk t).view.emb (ix2 k c')) = V c main_arg6 (ix2 k c')
      refine congrArg _ (funext fun a => Fin.ext ?_)
      match a with
      | ⟨0, _⟩ => show win3_3.index t (0 : Fin 2) * 256 + 1 * k.val = k.val; omega
      | ⟨1, _⟩ => show win3_3.index t (1 : Fin 2) * 129 + 1 * c'.val = c'.val; omega)
    (fun c' => by
      show V c main_v39 (((cfg3.win 4).blk t).view.emb (ix2 0 c')) = V c main_v39 (ix2 0 c')
      refine congrArg _ (funext fun a => Fin.ext ?_)
      match a with
      | ⟨0, _⟩ => show win3_4.index t (0 : Fin 2) * 1 + 1 * (0 : Fin 1).val = (0 : Fin 1).val; simp only [Fin.val_zero]; omega
      | ⟨1, _⟩ => show win3_4.index t (1 : Fin 2) * 129 + 1 * c'.val = c'.val; omega)

/-- An index is in point `t`'s block iff each coordinate is in the block's range. -/
theorem mem_blk3 (t : Fin cfg3.N) (i : S100000x129.Idx) :
    i ∈ ((cfg3.win 5).blk t).view.set ↔ ∀ a : Fin 2, win3_5.index t a * S2000x129.size a ≤ (i a).val ∧ (i a).val < win3_5.index t a * S2000x129.size a + S2000x129.size a := by
  show i ∈ ((View.whole main_v40).slice (win3_5.rect t)).set ↔ _
  rw [View.set_slice_whole, Rect.mem_set_unit]
  exact Iff.rfl

/-- The row blocks tile the array. -/
theorem cover3 (i : S100000x129.Idx) :
    ∃ t : Fin cfg3.N, (cfg3.win 5).flush t = true ∧ i ∈ ((cfg3.win 5).blk t).view.set := by
  have hi0 : (i 0).val < 100000 := (i 0).isLt
  have hi1 : (i 1).val < 129 := (i 1).isLt
  obtain ⟨t, ht⟩ := onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 129 ≤ (i 1).val ∧ (i 1).val < win3_5.index t (1 : Fin 2) * 129 + 129; omega

/-- THE ARRAY after region 3: the stage's function of the arrays the region finds. -/
theorem final3 (c : Dev nD) : (dat3 V c).arrAt 5 cfg3.N = sage2Arr (V c main_v26) (V c main_v38) (V c main_v12) (V c main_arg6) (V c main_v39) :=
  (dat3 V c).arrAt_eq_of_cover 5 _ (fun t _ => flushed3 V c t) cover3

end Cert.KernelIdeal.Blocks

end
-- ==== Proof.Network.lean ====
/-
  The whole network, in the two arrangements, and their equality on real inputs.

  Both programs compute `log_softmax (layer₂ (relu (layer₁ x)))` row by row. By the law of the layers
  (both arrangements of one layer agree on real entries and give real entries), the first layers agree and are
  real, so their rectifications agree and are real, so the second layers agree; the log-softmax is then the same
  function of equal rows.
-/
import proofs.«174269_j52905407152430_2_alg».proof.Proof.Spec

noncomputable section

open Idealize.ShloMosaic Idealize.ShloMosaic.ValueIdx Cert.SegmentRows Cert.IdealReal Cert.LibERealSums

namespace Cert.Sage

variable {N E K C C' : ℕ}

/-- Project-first arrangement. -/
def netK (hN : 0 < N) (src dst : Col E) (x : Mat N K) (w1l w1r : Mat K C) (b1 : Row C) (w2l w2r : Mat C C') (b2 : Row C') :
    Mat N C' :=
  fun i => lsm (fun c' => layerK hN src dst (reluArr (layerK hN src dst x w1l w1r b1)) w2l w2r b2 (i 0) c') (i 1)

/-- Aggregate-first arrangement. -/
def netR (hN : 0 < N) (src dst : Col E) (x : Mat N K) (w1l w1r : Mat K C) (b1 : Row C) (w2l w2r : Mat C C') (b2 : Row C') :
    Mat N C' :=
  fun i => lsm (fun c' => layerR hN src dst (reluArr (layerR hN src dst x w1l w1r b1)) w2l w2r b2 (i 0) c') (i 1)

/-- An array all of whose entries are reals is a lifted vector. -/
theorem eq_lift1 {n : ℕ} (v : Row n) (f : Fin n → ℝ) (h : ∀ a, v (ix1 a) = ((f a : ℝ) : EReal)) : v = lift1 f := by
  funext i
  rw [eq_ix1 i]
  exact h _

/-- THE TWO ARRANGEMENTS AGREE on real inputs. -/
theorem net_eq (hN : 0 < N) (src dst : Col E) (X : Fin N → Fin K → ℝ) (W1l W1r : Fin K → Fin C → ℝ) (B1 : Fin C → ℝ)
    (W2l W2r : Fin C → Fin C' → ℝ) (B2 : Fin C' → ℝ) :
    netK hN src dst (lift2 X) (lift2 W1l) (lift2 W1r) (lift1 B1) (lift2 W2l) (lift2 W2r) (lift1 B2)
      = netR hN src dst (lift2 X) (lift2 W1l) (lift2 W1r) (lift1 B1) (lift2 W2l) (lift2 W2r) (lift1 B2) := by
  obtain ⟨H1, hk1, hr1⟩ := layer_real hN src dst X W1l W1r B1
  have hzero : zero = ((0 : ℝ) : EReal) := zero_eq.trans EReal.coe_zero.symm
  have eK : reluArr (layerK hN src dst (lift2 X) (lift2 W1l) (lift2 W1r) (lift1 B1)) = lift2 fun r c => max (H1 r c) 0 :=
    eq_lift2 _ _ fun r c => by
      show max (layerK hN src dst (lift2 X) (lift2 W1l) (lift2 W1r) (lift1 B1) r c) zero = _
      rw [hk1, hzero]; exact (EReal.coe_strictMono.monotone.map_max).symm
  have eR : reluArr (layerR hN src dst (lift2 X) (lift2 W1l) (lift2 W1r) (lift1 B1)) = lift2 fun r c => max (H1 r c) 0 :=
    eq_lift2 _ _ fun r c => by
      show max (layerR hN src dst (lift2 X) (lift2 W1l) (lift2 W1r) (lift1 B1) r c) zero = _
      rw [hr1, hzero]; exact (EReal.coe_strictMono.monotone.map_max).symm
  obtain ⟨H2, hk2, hr2⟩ := layer_real hN src dst (fun r c => max (H1 r c) 0) W2l W2r B2
  funext i
  unfold netK netR
  rw [eK, eR]
  exact congrArg (fun L => lsm L (i 1)) (funext fun c' => (hk2 (i 0) c').trans (hr2 (i 0) c').symm)

end Cert.Sage

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«174269_j52905407152430_2_alg».proof.Proof.LibSegmentRows
import proofs.«174269_j52905407152430_2_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«174269_j52905407152430_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.HostLemmas.lean ====
/-
  Compositions of host operations read at an entry, over the extended reals: the reciprocal of the clamped
  in-degree kept as a column; the row-wise log-softmax; and one layer in the arrangement "aggregate, divide,
  project". (The single operations — scatters, gather, kept axes, row reductions — are read in the general
  lemma file these build on.)
-/
import proofs.«174269_j52905407152430_2_alg».proof.Proof.Spec
import proofs.«174269_j52905407152430_2_alg».proof.Proof.LibRowMax
import proofs.«174269_j52905407152430_2_alg».proof.Proof.LibHostReads
import proofs.«174269_j52905407152430_2_alg».proof.Proof.LibPlainDot
import Idealize.ShloMosaic.PureOps.Reduce
import Idealize.ShloMosaic.Lib.Pipeline.Value

noncomputable section

open Idealize.ShloMosaic Idealize.ShloMosaic.ValueIdx Cert.SegmentRows

namespace Cert.Sage

variable {N E K C : ℕ}

export Cert.LibHostReads (hostScatter_rows_apply hostScatter_vec_apply hostGather_rows_apply colInner_apply colOuter_apply
  rowInner_apply rowOuter_apply hostRowMax_apply hostRowSum_apply)

/-- The reciprocal of the clamped in-degree, kept as a column, read at `(r, 0)`. -/
theorem invdegVec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x a b : Row N) (idx : Col E) (upd : Row E) (hc : (⟨1, ![N]⟩ : Shape).ShapeCasts ⟨2, ![N, 1]⟩) (r : Fin N) :
    shapeCast ⟨2, ![N, 1]⟩ (Host.divf (F := Ideal) (φ := .f32) a (maximumf (Host.scatterAdd (F := Ideal) (φ := .f32) d x idx upd) b)) hc (ix2 r 0)
      = Ideal.div (a (ix1 r)) (max (x (ix1 r) + ∑ e ∈ segment idx r, upd (ix1 e)) (b (ix1 r))) := by
  rw [Cert.Rows.cast_col _ hc r]
  show Ideal.div (a (ix1 r)) (max (Host.scatterAdd (F := Ideal) (φ := .f32) d x idx upd (ix1 r)) (b (ix1 r))) = _
  rw [hostScatter_vec_apply d wf hd]

variable {α : Type} {m n : ℕ}

/-- THE ROW-WISE LOG-SOFTMAX as the host computes it, read at `(p, q)`. -/
theorem lsmHost_apply (v : FVec Ideal (⟨2, ![m, n]⟩ : Shape) .f32) (init1 init2 : (⟨0, ![]⟩ : Shape).Idx → EReal)
    (nb : FVec Ideal (⟨1, ![m]⟩ : Shape) .f32) (hi1 : ∀ i, init1 i = ninf) (hi2 : ∀ i, init2 i = zero) (hnb : ∀ i, nb i = ninf)
    (h' : (⟨2, ![m, n]⟩ : Shape).ReducesTo [1] (⟨1, ![m]⟩ : Shape))
    (hu : 0 < (⟨0, ![]⟩ : Shape).numel)
    (hb1 : (⟨1, ![m]⟩ : Shape).BroadcastsInDim ⟨2, ![m, 1]⟩ ![0]) (hb2 : (⟨2, ![m, 1]⟩ : Shape).BroadcastsInDim ⟨2, ![m, n]⟩ ![0, 1])
    (p : Fin m) (q : Fin n) :
    subf (subf v (broadcastInDim (s := ⟨2, ![m, 1]⟩) ⟨2, ![m, n]⟩ ![0, 1] hb2 (broadcastInDim (s := ⟨1, ![m]⟩) ⟨2, ![m, 1]⟩ ![0] hb1
        (maximumf nb (Host.reduce (FloatOps.maximumf (F := Ideal) (φ := .f32)) v init1 h' hu)))))
      (broadcastInDim (s := ⟨2, ![m, 1]⟩) ⟨2, ![m, n]⟩ ![0, 1] hb2 (Host.log (broadcastInDim (s := ⟨1, ![m]⟩) ⟨2, ![m, 1]⟩ ![0] hb1
        (Host.reduceAdd (F := Ideal) (φ := .f32) (Host.exp (subf v (broadcastInDim (s := ⟨2, ![m, 1]⟩) ⟨2, ![m, n]⟩ ![0, 1] hb2 (broadcastInDim (s := ⟨1, ![m]⟩) ⟨2, ![m, 1]⟩ ![0] hb1
          (maximumf nb (Host.reduce (FloatOps.maximumf (F := Ideal) (φ := .f32)) v init1 h' hu)))))) init2 h' hu)))) (ix2 p q)
      = lsm (fun c => v (ix2 p c)) q := by
  have hmx : ∀ c : Fin n, broadcastInDim (s := ⟨2, ![m, 1]⟩) ⟨2, ![m, n]⟩ ![0, 1] hb2 (broadcastInDim (s := ⟨1, ![m]⟩) ⟨2, ![m, 1]⟩ ![0] hb1
        (maximumf nb (Host.reduce (FloatOps.maximumf (F := Ideal) (φ := .f32)) v init1 h' hu))) (ix2 p c)
      = Finset.univ.fold max ninf (fun c => v (ix2 p c)) := fun c => by
    rw [colOuter_apply, colInner_apply, maximumf_apply, hnb, hostRowMax_apply v init1 h' hu p, hi1]
    exact Cert.Rows.neg_inf_max _
  rw [subf_apply, subf_apply, hmx q, colOuter_apply]
  show _ - Ideal.log (broadcastInDim (s := ⟨1, ![m]⟩) ⟨2, ![m, 1]⟩ ![0] hb1 _ (ix2 p 0)) = _
  rw [colInner_apply, hostRowSum_apply _ init2 h' hu p, hi2, zero_eq, zero_add]
  unfold lsm
  refine congrArg (fun s => _ - Ideal.log s) (Finset.sum_congr rfl fun c _ => ?_)
  show Ideal.exp (subf v _ (ix2 p c)) = _
  rw [subf_apply, hmx c]

/-- ONE LAYER as the host computes it — aggregate the raw rows, divide by the clamped in-degree, project, add the
    bias, add the root term — read at `(r, c)`. -/
theorem layerHost_apply (hN : 0 < N)
    (dG : GatherDims ⟨2, ![N, K]⟩ ⟨2, ![E, 1]⟩ ⟨2, ![E, K]⟩)
    (wfG : GatherDims.WF ⟨2, ![N, K]⟩ ⟨2, ![E, 1]⟩ ⟨2, ![E, K]⟩ [1] [0] [] [0] [] 1 ![1, K]) (hG : dG = rowGatherDims N E K wfG)
    (dS : ScatterDims ⟨2, ![N, K]⟩ ⟨2, ![E, 1]⟩ ⟨2, ![E, K]⟩)
    (wfS : ScatterDims.WF ⟨2, ![N, K]⟩ ⟨2, ![E, 1]⟩ ⟨2, ![E, K]⟩ [1] [0] [0] 1) (hS : dS = rowScatterDims N E K wfS)
    (dV : ScatterDims ⟨1, ![N]⟩ ⟨2, ![E, 1]⟩ ⟨1, ![E]⟩)
    (wfV : ScatterDims.WF ⟨1, ![N]⟩ ⟨2, ![E, 1]⟩ ⟨1, ![E]⟩ [] [0] [0] 1) (hV : dV = vecScatterDims N E wfV)
    (D : DotDims ⟨2, ![N, K]⟩ ⟨2, ![K, C]⟩ ⟨2, ![N, C]⟩)
    (hlc : D.lhsContracting = [1]) (hrc : D.rhsContracting = [0]) (hln : D.lhsNonContracting = [0])
    (hrn : D.rhsNonContracting = [1]) (hlb : D.lhsBatch = []) (hrb : D.rhsBatch = [])
    (x : Mat N K) (wl wr : Mat K C) (b : Row C) (src dst : Col E)
    (z2 : Mat N K) (hz2 : ∀ i, z2 i = zero) (z1 : Row N) (hz1 : ∀ i, z1 i = zero)
    (o1 : Row E) (ho1 : ∀ i, o1 i = one) (oN : Row N) (hoN : ∀ i, oN i = one)
    (hb1 : (⟨1, ![N]⟩ : Shape).BroadcastsInDim ⟨2, ![N, 1]⟩ ![0]) (hb2 : (⟨2, ![N, 1]⟩ : Shape).BroadcastsInDim ⟨2, ![N, K]⟩ ![0, 1])
    (hc1 : (⟨1, ![C]⟩ : Shape).BroadcastsInDim ⟨2, ![1, C]⟩ ![1]) (hc2 : (⟨2, ![1, C]⟩ : Shape).BroadcastsInDim ⟨2, ![N, C]⟩ ![0, 1])
    (r : Fin N) (c : Fin C) :
    addf (addf (Host.dotGeneral (F := Ideal) (φ₁ := .f32) (φ₂ := .f32) D none
        (Host.divf (F := Ideal) (φ := .f32) (Host.scatterAdd (F := Ideal) (φ := .f32) dS z2 dst (Host.gather dG x src))
          (broadcastInDim (s := ⟨2, ![N, 1]⟩) ⟨2, ![N, K]⟩ ![0, 1] hb2 (broadcastInDim (s := ⟨1, ![N]⟩) ⟨2, ![N, 1]⟩ ![0] hb1
            (maximumf (Host.scatterAdd (F := Ideal) (φ := .f32) dV z1 dst o1) oN)))) wl)
        (broadcastInDim (s := ⟨2, ![1, C]⟩) ⟨2, ![N, C]⟩ ![0, 1] hc2 (broadcastInDim (s := ⟨1, ![C]⟩) ⟨2, ![1, C]⟩ ![1] hc1 b)))
      (Host.dotGeneral (F := Ideal) (φ₁ := .f32) (φ₂ := .f32) D none x wr) (ix2 r c)
      = layerR hN src dst x wl wr b r c := by
  have hdiv : ∀ k : Fin K, Host.divf (F := Ideal) (φ := .f32) (Host.scatterAdd (F := Ideal) (φ := .f32) dS z2 dst (Host.gather dG x src))
        (broadcastInDim (s := ⟨2, ![N, 1]⟩) ⟨2, ![N, K]⟩ ![0, 1] hb2 (broadcastInDim (s := ⟨1, ![N]⟩) ⟨2, ![N, 1]⟩ ![0] hb1
          (maximumf (Host.scatterAdd (F := Ideal) (φ := .f32) dV z1 dst o1) oN))) (ix2 r k)
      = Ideal.div (nsum hN src dst (fun n k => x (ix2 n k)) r k) (dmax dst r) := fun k => by
    show Ideal.div (Host.scatterAdd (F := Ideal) (φ := .f32) dS z2 dst (Host.gather dG x src) (ix2 r k))
      (broadcastInDim (s := ⟨2, ![N, 1]⟩) ⟨2, ![N, K]⟩ ![0, 1] hb2 (broadcastInDim (s := ⟨1, ![N]⟩) ⟨2, ![N, 1]⟩ ![0] hb1
          (maximumf (Host.scatterAdd (F := Ideal) (φ := .f32) dV z1 dst o1) oN)) (ix2 r k)) = _
    rw [hostScatter_rows_apply dS wfS hS, colOuter_apply, colInner_apply, maximumf_apply,
      hostScatter_vec_apply dV wfV hV, hz2, hz1, hoN]
    unfold nsum dmax deg
    rw [Finset.sum_congr rfl fun e _ => hostGather_rows_apply hN dG wfG hG x src e k,
      Finset.sum_congr rfl fun e _ => ho1 (ix1 e)]
  rw [addf_apply, addf_apply, rowOuter_apply, rowInner_apply]
  simp only [Host.dotGeneral]
  rw [Cert.LibPlainDot.dotGeneral_plain_apply D hlc hrc hln hrn hlb hrb,
    Cert.LibPlainDot.dotGeneral_plain_apply D hlc hrc hln hrn hlb hrb]
  unfold layerR proj
  rw [Finset.sum_congr rfl fun k _ => by rw [hdiv k]]

end Cert.Sage

end
-- ==== Proof.KernelValue.lean ====
/-
  The idealized kernel's result as a function of its arguments.

  Between the four pipelines the program computes, on the host: the destination column and the (wrapped) source
  column of the edge list; the in-degree of every node as a scatter of ones, and the reciprocal of its maximum
  with one; the rows of a projected array taken at the sources and summed into the destinations. A host
  operation's result is read off the fold of the stretch it belongs to, a pipeline's output array is the
  stage's function of the arrays the region finds (from blocks to arrays), and a buffer that a stretch or a
  region does not write is carried unchanged. Chaining these from the launch memory to the last pipeline, the
  result array is: the row-wise log-softmax of the second layer applied to the rectified first layer, each layer
  in the arrangement "project, aggregate, scale by the reciprocal".
-/
import proofs.«174269_j52905407152430_2_alg».proof.Proof.Gen.KernelIdeal.Frame
import proofs.«174269_j52905407152430_2_alg».proof.Proof.KernelBlocks
import proofs.«174269_j52905407152430_2_alg».proof.Proof.Network
import proofs.«174269_j52905407152430_2_alg».proof.Proof.HostLemmas
import Idealize.ShloMosaic.Lib.StableHlo.Run

set_option maxRecDepth 16384

noncomputable section

open Idealize.ShloMosaic Idealize.ShloMosaic.ValueIdx Cert.SegmentRows

namespace Cert.Sage

variable {N E C : ℕ}

variable {K : ℕ}

theorem sage1Arr_apply (x : Mat N K) (s : Mat N C) (d : Mat N 1) (w : Mat K C) (b : Mat 1 C) (r : Fin N) (q : Fin C) :
    sage1Arr x s d w b (ix2 r q) = max ((proj x w r q + s (ix2 r q) * d (ix2 r 0)) + b (ix2 0 q)) zero := rfl

theorem sage2Arr_apply (h : Mat N K) (s : Mat N C) (d : Mat N 1) (w : Mat K C) (b : Mat 1 C) (r : Fin N) (q : Fin C) :
    sage2Arr h s d w b (ix2 r q) = lsm (fun c => (proj h w r c + s (ix2 r c) * d (ix2 r 0)) + b (ix2 0 c)) q := rfl

end Cert.Sage

namespace Cert.KernelIdeal.HostValue

open Idealize.ShloMosaic.TcCoe Idealize.SL.Sem Idealize.ShloMosaic.StableHlo
open Cert.KernelIdeal Cert.KernelIdeal.Gen Cert.KernelIdeal.Blocks Cert.Sage

variable (m : (ℓ : Loc nD τ sig) → Buf (Elt Ideal) ℓ) (ρ : Dev nD → PrngReg)

/-- The edge list's two rows as vectors, and as the index columns the gathers and scatters take: the sources with a
    negative index moved up by the number of nodes, the destinations as they are. -/
def srcVec (ei : (⟨S2x400000, .i32⟩ : BufTy).Contents (Elt Ideal)) : (⟨S400000, .i32⟩ : BufTy).Contents (Elt Ideal) :=
  shapeCast S400000 (extractStridedSlice S1x400000 ![0, 0] ei slices_S2x400000_S1x400000_0_0) shapeCasts_S1x400000_S400000
def dstVec (ei : (⟨S2x400000, .i32⟩ : BufTy).Contents (Elt Ideal)) : (⟨S400000, .i32⟩ : BufTy).Contents (Elt Ideal) :=
  shapeCast S400000 (extractStridedSlice S1x400000 ![1, 0] ei slices_S2x400000_S1x400000_1_0) shapeCasts_S1x400000_S400000
def srcCol (ei : (⟨S2x400000, .i32⟩ : BufTy).Contents (Elt Ideal)) : Col 400000 :=
  broadcastInDim S400000x1 ![0] bcast_S400000_S400000x1_0
    (select (cmpi .slt (srcVec ei) (broadcastInDim S400000 ![] bcast_S_S400000 (constantI S_ 32 0#32)))
      (addi (srcVec ei) (broadcastInDim S400000 ![] bcast_S_S400000 (constantI S_ 32 100000#32))) (srcVec ei))
def dstCol (ei : (⟨S2x400000, .i32⟩ : BufTy).Contents (Elt Ideal)) : Col 400000 :=
  broadcastInDim S400000x1 ![0] bcast_S400000_S400000x1_0 (dstVec ei)

theorem w1_v1 (c : Dev nD) : W1 m ρ c (Proc.devRef .tc main_v1) = srcVec (m ((c : Thread nD τ).loc main_arg1)) := by
  dsimp only [W1, hostOps0]
  after_results
  rfl

theorem w1_v3 (c : Dev nD) : W1 m ρ c (Proc.devRef .tc main_v3) = dstVec (m ((c : Thread nD τ).loc main_arg1)) := by
  dsimp only [W1, hostOps0]
  after_results
  rfl

theorem w1_v12 (c : Dev nD) : (W1 m ρ c (Proc.devRef .tc main_v12) : (⟨S100000x1, .f32⟩ : BufTy).Contents (Elt Ideal))
    = shapeCast S100000x1 (Host.divf (broadcastInDim S100000 ![] bcast_S_S100000 (constant (F := Ideal) S_ .f32 0x3F800000#32))
        (maximumf (Host.scatterAdd (F := Ideal) scatter_S100000_S400000x1_S400000_n_0_0_1
            (broadcastInDim S100000 ![] bcast_S_S100000 (constant (F := Ideal) S_ .f32 0x00000000#32)) (dstCol (m ((c : Thread nD τ).loc main_arg1)))
            (broadcastInDim S400000 ![] bcast_S_S400000 (constant (F := Ideal) S_ .f32 0x3F800000#32)))
          (broadcastInDim S100000 ![] bcast_S_S100000 (constant (F := Ideal) S_ .f32 0x3F800000#32)))) shapeCasts_S100000_S100000x1 := by
  dsimp only [W1, hostOps0]
  after_results
  rfl

theorem hN : 0 < 100000 := by decide

/-- A vector `[a]` recast as a row `[1, a]`, read at `(0, q)`. -/
theorem cast_row {α : Type} {a : ℕ} (v : (⟨1, ![a]⟩ : Shape).Idx → α) (h : (⟨1, ![a]⟩ : Shape).ShapeCasts ⟨2, ![1, a]⟩) (q : Fin a) :
    shapeCast ⟨2, ![1, a]⟩ v h (ix2 0 q) = v (ix1 q) :=
  (shapeCast_addUnit_apply ![a] v h (ix2 0 q)).trans (congrArg v (funext fun d => by match d with | ⟨0, _⟩ => rfl))

/-- The reciprocal column at row `r`: one over the larger of the in-degree and one. -/
theorem invdeg_at (c : Dev nD) (r : Fin 100000) :
    W1 m ρ c (Proc.devRef .tc main_v12) (ix2 r 0) = Ideal.div one (dmax (dstCol (m ((c : Thread nD τ).loc main_arg1))) r) := by
  rw [w1_v12]
  refine (invdegVec_apply (N := 100000) (E := 400000) scatter_S100000_S400000x1_S400000_n_0_0_1
    scatter_S100000_S400000x1_S400000_n_0_0_1.wf rfl _ _ _ _ _ _ r).trans ?_
  rfl

/-- Skipping a stretch of host operations that does not write the buffer. -/
macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Buffers carried unchanged across stretches and regions -/

theorem a1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_skip hostOps0
    _ = m ((c : Thread nD τ).loc main_arg0) := rfl

theorem a1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_skip hostOps0
    _ = m ((c : Thread nD τ).loc main_arg2) := rfl

theorem a3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_skip hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_skip hostOps0
    _ = m ((c : Thread nD τ).loc main_arg0) := rfl

theorem a3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0
    _ = m ((c : Thread nD τ).loc main_arg3) := rfl

theorem a2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_skip hostOps0
    _ = m ((c : Thread nD τ).loc main_arg4) := rfl

theorem a4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0
    _ = m ((c : Thread nD τ).loc main_arg5) := rfl

theorem a6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by host_skip hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_skip hostOps1
    _ = W1 m ρ c (Proc.devRef .tc main_arg6) := W2_of_ne m ρ c main_arg6 (by decide)
    _ = W0 m ρ c (Proc.devRef .tc main_arg6) := by host_skip hostOps0
    _ = m ((c : Thread nD τ).loc main_arg6) := rfl

theorem a5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0
    _ = m ((c : Thread nD τ).loc main_arg7) := rfl

theorem t2_v1 (c : Dev nD) : W2 m ρ c (Proc.devRef .tc main_v1) = srcVec (m ((c : Thread nD τ).loc main_arg1)) :=
  calc W2 m ρ c (Proc.devRef .tc main_v1)
    _ = W1 m ρ c (Proc.devRef .tc main_v1) := W2_of_ne m ρ c main_v1 (by decide)
    _ = srcVec (m ((c : Thread nD τ).loc main_arg1)) := w1_v1 m ρ c

theorem t2_v3 (c : Dev nD) : W2 m ρ c (Proc.devRef .tc main_v3) = dstVec (m ((c : Thread nD τ).loc main_arg1)) :=
  calc W2 m ρ c (Proc.devRef .tc main_v3)
    _ = W1 m ρ c (Proc.devRef .tc main_v3) := W2_of_ne m ρ c main_v3 (by decide)
    _ = dstVec (m ((c : Thread nD τ).loc main_arg1)) := w1_v3 m ρ c

theorem t5_v1 (c : Dev nD) : W5 m ρ c (Proc.devRef .tc main_v1) = srcVec (m ((c : Thread nD τ).loc main_arg1)) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)
    _ = srcVec (m ((c : Thread nD τ).loc main_arg1)) := w1_v1 m ρ c

theorem t5_v3 (c : Dev nD) : W5 m ρ c (Proc.devRef .tc main_v3) = dstVec (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)
    _ = dstVec (m ((c : Thread nD τ).loc main_arg1)) := w1_v3 m ρ c

theorem t3_v12 (c : Dev nD) : W3 m ρ c (Proc.devRef .tc main_v12) = W1 m ρ c (Proc.devRef .tc main_v12) :=
  calc W3 m ρ c (Proc.devRef .tc main_v12)
    _ = W2 m ρ c (Proc.devRef .tc main_v12) := by host_skip hostOps1
    _ = W1 m ρ c (Proc.devRef .tc main_v12) := W2_of_ne m ρ c main_v12 (by decide)

theorem t6_v12 (c : Dev nD) : W6 m ρ c (Proc.devRef .tc main_v12) = W1 m ρ c (Proc.devRef .tc main_v12) :=
  calc W6 m ρ c (Proc.devRef .tc main_v12)
    _ = W5 m ρ c (Proc.devRef .tc main_v12) := by host_skip hostOps3
    _ = W4 m ρ c (Proc.devRef .tc main_v12) := W5_of_ne m ρ c main_v12 (by decide)
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := by host_skip hostOps1
    _ = W1 m ρ c (Proc.devRef .tc main_v12) := W2_of_ne m ρ c main_v12 (by decide)

theorem t6_v26 (c : Dev nD) : W6 m ρ c (Proc.devRef .tc main_v26) = W4 m ρ c (Proc.devRef .tc main_v26) :=
  calc W6 m ρ c (Proc.devRef .tc main_v26)
    _ = W5 m ρ c (Proc.devRef .tc main_v26) := by host_skip hostOps3
    _ = W4 m ρ c (Proc.devRef .tc main_v26) := (W5_arr m ρ c 0).trans (((dat2 (V4 m ρ) c).arrAt_in 0 rfl _).trans (A_eq2 (V4 m ρ) c 0))

/-! ## Layer 1 -/

/-- The first projection's array: the node features times the left weights. -/
theorem w2_v13 (c : Dev nD) : W2 m ρ c (Proc.devRef .tc main_v13) = projArr (m ((c : Thread nD τ).loc main_arg0)) (m ((c : Thread nD τ).loc main_arg2)) := by
  refine (W2_arr m ρ c 2).trans ((final0 (V1 m ρ) c).trans ?_)
  show projArr (W1 m ρ c (Proc.devRef .tc main_arg0)) (W1 m ρ c (Proc.devRef .tc main_arg2)) = _
  rw [a1_arg0, a1_arg2]

set_option maxHeartbeats 2000000 in
theorem w3_v24 (c : Dev nD) : (W3 m ρ c (Proc.devRef .tc main_v24) : (⟨S100000x256, .f32⟩ : BufTy).Contents (Elt Ideal))
    = Host.scatterAdd (F := Ideal) scatter_S100000x256_S400000x1_S400000x256_1_0_0_1
        (broadcastInDim S100000x256 ![] bcast_S_S100000x256 (constant (F := Ideal) S_ .f32 0x00000000#32)) (dstCol (m ((c : Thread nD τ).loc main_arg1)))
        (extf (F := Ideal) .f32 (Host.gather gather_S100000x256_S400000x1_S400000x256_1_0_n_n_0_1_1256
          (projArr (m ((c : Thread nD τ).loc main_arg0)) (m ((c : Thread nD τ).loc main_arg2)) : (⟨S100000x256, .bf16⟩ : BufTy).Contents (Elt Ideal)) (srcCol (m ((c : Thread nD τ).loc main_arg1)))) bitsLt_bf16_f32) := by
  dsimp only [W3, hostOps1]
  after_results
  rw [t2_v1, t2_v3, w2_v13]
  rfl

/-- The aggregated projected messages at `(r, q)`. -/
theorem r3_v24 (c : Dev nD) (r : Fin 100000) (q : Fin 256) : W3 m ρ c (Proc.devRef .tc main_v24) (ix2 r q)
    = nsum hN (srcCol (m ((c : Thread nD τ).loc main_arg1))) (dstCol (m ((c : Thread nD τ).loc main_arg1))) (proj (m ((c : Thread nD τ).loc main_arg0)) (m ((c : Thread nD τ).loc main_arg2))) r q := by
  rw [w3_v24]
  refine (hostScatter_rows_apply _ scatter_S100000x256_S400000x1_S400000x256_1_0_0_1.wf rfl _ _ _ r q).trans ?_
  exact congrArg₂ (· + ·) rfl (Finset.sum_congr rfl fun e _ =>
    hostGather_rows_apply hN _ gather_S100000x256_S400000x1_S400000x256_1_0_n_n_0_1_1256.wf rfl
      (projArr (m ((c : Thread nD τ).loc main_arg0)) (m ((c : Thread nD τ).loc main_arg2))) (srcCol (m ((c : Thread nD τ).loc main_arg1))) e q)

theorem w3_v25 (c : Dev nD) : (W3 m ρ c (Proc.devRef .tc main_v25) : (⟨S1x256, .f32⟩ : BufTy).Contents (Elt Ideal)) = shapeCast S1x256 (m ((c : Thread nD τ).loc main_arg4)) shapeCasts_S256_S1x256 := by
  dsimp only [W3, hostOps1]
  after_results
  rw [a2_arg4]
  rfl

theorem r3_v25 (c : Dev nD) (q : Fin 256) : W3 m ρ c (Proc.devRef .tc main_v25) (ix2 0 q) = (m ((c : Thread nD τ).loc main_arg4)) (ix1 q) := by
  rw [w3_v25]
  exact cast_row _ _ q

/-- THE HIDDEN LAYER: the array the first combining pipeline leaves. -/
theorem hid_eq (c : Dev nD) : W4 m ρ c (Proc.devRef .tc main_v26)
    = reluArr (layerK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4))) := by
  refine (W4_arr m ρ c 5).trans ((final1 (V3 m ρ) c).trans ?_)
  rw [show V3 m ρ c main_arg0 = (m ((c : Thread nD τ).loc main_arg0)) from a3_arg0 m ρ c, show V3 m ρ c main_arg3 = (m ((c : Thread nD τ).loc main_arg3)) from a3_arg3 m ρ c]
  funext i
  obtain ⟨r, q, rfl⟩ : ∃ (r : Fin 100000) (q : Fin 256), i = ix2 r q := ⟨i 0, i 1, eq_ix2 i⟩
  have h24 : V3 m ρ c main_v24 (ix2 r q) = _ := r3_v24 m ρ c r q
  have h12 : V3 m ρ c main_v12 (ix2 r 0) = _ := (congrFun (t3_v12 m ρ c) (ix2 r 0)).trans (invdeg_at m ρ c r)
  have h25 : V3 m ρ c main_v25 (ix2 0 q) = _ := r3_v25 m ρ c q
  rw [sage1Arr_apply, h24, h12, h25]
  rfl

/-! ## Layer 2 -/

theorem w5_v27 (c : Dev nD) : W5 m ρ c (Proc.devRef .tc main_v27)
    = projArr (reluArr (layerK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)))) (m ((c : Thread nD τ).loc main_arg5)) := by
  refine (W5_arr m ρ c 2).trans ((final2 (V4 m ρ) c).trans ?_)
  show projArr (W4 m ρ c (Proc.devRef .tc main_v26)) (W4 m ρ c (Proc.devRef .tc main_arg5)) = _
  rw [hid_eq, a4_arg5]

set_option maxHeartbeats 2000000 in
theorem w6_v38 (c : Dev nD) : (W6 m ρ c (Proc.devRef .tc main_v38) : (⟨S100000x129, .f32⟩ : BufTy).Contents (Elt Ideal))
    = Host.scatterAdd (F := Ideal) scatter_S100000x129_S400000x1_S400000x129_1_0_0_1
        (broadcastInDim S100000x129 ![] bcast_S_S100000x129 (constant (F := Ideal) S_ .f32 0x00000000#32)) (dstCol (m ((c : Thread nD τ).loc main_arg1)))
        (extf (F := Ideal) .f32 (Host.gather gather_S100000x129_S400000x1_S400000x129_1_0_n_n_0_1_1129
          (projArr (reluArr (layerK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)))) (m ((c : Thread nD τ).loc main_arg5)) : (⟨S100000x129, .bf16⟩ : BufTy).Contents (Elt Ideal))
          (srcCol (m ((c : Thread nD τ).loc main_arg1)))) bitsLt_bf16_f32) := by
  dsimp only [W6, hostOps3]
  after_results
  rw [t5_v1, t5_v3, w5_v27]
  rfl

theorem r6_v38 (c : Dev nD) (r : Fin 100000) (q : Fin 129) : W6 m ρ c (Proc.devRef .tc main_v38) (ix2 r q)
    = nsum hN (srcCol (m ((c : Thread nD τ).loc main_arg1))) (dstCol (m ((c : Thread nD τ).loc main_arg1)))
        (proj (reluArr (layerK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)))) (m ((c : Thread nD τ).loc main_arg5))) r q := by
  rw [w6_v38]
  refine (hostScatter_rows_apply _ scatter_S100000x129_S400000x1_S400000x129_1_0_0_1.wf rfl _ _ _ r q).trans ?_
  exact congrArg₂ (· + ·) rfl (Finset.sum_congr rfl fun e _ =>
    hostGather_rows_apply hN _ gather_S100000x129_S400000x1_S400000x129_1_0_n_n_0_1_1129.wf rfl
      (projArr (reluArr (layerK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)))) (m ((c : Thread nD τ).loc main_arg5))) (srcCol (m ((c : Thread nD τ).loc main_arg1))) e q)

theorem w6_v39 (c : Dev nD) : (W6 m ρ c (Proc.devRef .tc main_v39) : (⟨S1x129, .f32⟩ : BufTy).Contents (Elt Ideal)) = shapeCast S1x129 (m ((c : Thread nD τ).loc main_arg7)) shapeCasts_S129_S1x129 := by
  dsimp only [W6, hostOps3]
  after_results
  rw [a5_arg7]
  rfl

theorem r6_v39 (c : Dev nD) (q : Fin 129) : W6 m ρ c (Proc.devRef .tc main_v39) (ix2 0 q) = (m ((c : Thread nD τ).loc main_arg7)) (ix1 q) := by
  rw [w6_v39]
  exact cast_row _ _ q

/-- THE RESULT: the array the last pipeline leaves is the network's function of the arguments. -/
theorem out_eq (c : Dev nD) : W7 m ρ c (Proc.devRef .tc main_v40)
    = netK hN (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 5).trans ((final3 (V6 m ρ) c).trans ?_)
  rw [show V6 m ρ c main_v26 = _ from (t6_v26 m ρ c).trans (hid_eq m ρ c), show V6 m ρ c main_arg6 = (m ((c : Thread nD τ).loc main_arg6)) from a6_arg6 m ρ c]
  funext i
  obtain ⟨r, q, rfl⟩ : ∃ (r : Fin 100000) (q : Fin 129), i = ix2 r q := ⟨i 0, i 1, eq_ix2 i⟩
  have h12 : V6 m ρ c main_v12 (ix2 r 0) = _ := (congrFun (t6_v12 m ρ c) (ix2 r 0)).trans (invdeg_at m ρ c r)
  rw [sage2Arr_apply, h12]
  refine congrArg (fun L => lsm L q) (funext fun c' => ?_)
  have h38 : V6 m ρ c main_v38 (ix2 r c') = _ := r6_v38 m ρ c r c'
  have h39 : V6 m ρ c main_v39 (ix2 0 c') = _ := r6_v39 m ρ c c'
  rw [h38, h39]
  rfl

end Cert.KernelIdeal.HostValue

end
-- ==== Proof.KernelRun.lean ====
/-
  The idealized kernel's run with its result named: every weakly fair execution of @main terminates, nothing
  faulting, with the result array at the network's function of the argument arrays (project, aggregate, scale
  by the reciprocal; rectify; the same again; row-wise log-softmax) and the arguments as launched. The run is the
  segments' run of the frame; the last thread state is read at the result's buffer as well as at the arguments'.
-/
import proofs.«174269_j52905407152430_2_alg».proof.Proof.KernelValue

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Sage

local notation "𝕄" => MT nD τ sig Unit (Elt Ideal) ℕ (UR sig nD τ) ℕ

variable (m : (ℓ : Loc nD τ sig) → Buf (Elt Ideal) ℓ) (ρ : Dev nD → PrngReg)

/-- The network's function of the argument arrays as core `c` holds them at launch. -/
def result (c : Dev nD) : Mat 100000 129 :=
  netK hN (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option backward.isDefEq.respectTransparency.types false in
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v40 (by decide))).trans (out_eq m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.HostValue

end
-- ==== Proof.RefParts.lean ====
/-
  The idealized reference's @main, one stretch of 84 host operations, cut in three parts: up to the rectified
  first layer; from there to the second layer's logits; and the row-wise log-softmax. Running the whole line is
  running the parts one after the other, each from the buffers the earlier parts left.
-/
import proofs.«174269_j52905407152430_2_alg».proof.Proof.RefRun
import proofs.«174269_j52905407152430_2_alg».proof.Proof.HostLemmas
import proofs.«174269_j52905407152430_2_alg».proof.Proof.Network
import Idealize.ShloMosaic.Lib.StableHlo.Run

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.Sage Cert.LibHostReads

section Parts
variable {F : FTy → Type} [FloatOps F]

/-- Operations 1–38: the index columns, the first layer and its rectification. -/
abbrev opsA : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S100000x512_S400000x1_S400000x512_1_0_n_n_0_1_1512 x i) : (⟨S100000x512, .f32⟩ : BufTy).Contents (Elt F) → (⟨S400000x1, .i32⟩ : BufTy).Contents (Elt F) → (⟨S400000x512, .f32⟩ : BufTy).Contents (Elt F)),
    nullary main_cst (constant S_ .f32 0x00000000#32),
    unary main_cst main_v11 (broadcastInDim S100000x512 ![] bcast_S_S100000x512 : (⟨S_, .f32⟩ : BufTy).Contents (Elt F) → (⟨S100000x512, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S100000x512_S400000x1_S400000x512_1_0_0_1 x i u) : (⟨S100000x512, .f32⟩ : BufTy).Contents (Elt F) → (⟨S400000x1, .i32⟩ : BufTy).Contents (Elt F) → (⟨S400000x512, .f32⟩ : BufTy).Contents (Elt F) → (⟨S100000x512, .f32⟩ : BufTy).Contents (Elt F)),
    nullary main_cst_1 (constant S_ .f32 0x3F800000#32),
    unary main_cst_1 main_v14 (broadcastInDim S400000 ![] bcast_S_S400000 : (⟨S_, .f32⟩ : BufTy).Contents (Elt F) → (⟨S400000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x512 ![0, 1] bcast_S100000x1_S100000x512_0_1 : (⟨S100000x1, .f32⟩ : BufTy).Contents (Elt F) → (⟨S100000x512, .f32⟩ : BufTy).Contents (Elt F)),
    binary main_v13 main_v21 main_v22 (Host.divf : (⟨S100000x512, .f32⟩ : BufTy).Contents (Elt F) → (⟨S100000x512, .f32⟩ : BufTy).Contents (Elt F) → (⟨S100000x512, .f32⟩ : BufTy).Contents (Elt F)),
    binary main_v22 main_arg2 main_v23 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg4 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    binary main_arg0 main_arg3 main_v27 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    binary main_v26 main_v27 main_v28 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v28) (TRef.of (T := ⟨S100000x256, .f32⟩) main_call0_v0) (TRef.of (T := ⟨S100000x256, .f32⟩) main_v29) maximumf ]

/-- Operations 39–69: the second layer's logits. -/
abbrev opsB : List (HloOp τ sig (Elt F)) :=
  [ nullary main_c_4 (constantI S_ 32 0#32),
    unary main_c_4 main_v30 (broadcastInDim S400000 ![] bcast_S_S400000 : (⟨S_, .i32⟩ : BufTy).Contents (Elt F) → (⟨S400000, .i32⟩ : BufTy).Contents (Elt F)),
    binary main_v1 main_v30 main_v31 (cmpi .slt : (⟨S400000, .i32⟩ : BufTy).Contents (Elt F) → (⟨S400000, .i32⟩ : BufTy).Contents (Elt F) → (⟨S400000, .i1⟩ : BufTy).Contents (Elt F)),
    nullary main_c_5 (constantI S_ 32 100000#32),
    unary main_c_5 main_v32 (broadcastInDim S400000 ![] bcast_S_S400000 : (⟨S_, .i32⟩ : BufTy).Contents (Elt F) → (⟨S400000, .i32⟩ : BufTy).Contents (Elt F)),
    binary main_v1 main_v32 main_v33 (addi : (⟨S400000, .i32⟩ : BufTy).Contents (Elt F) → (⟨S400000, .i32⟩ : BufTy).Contents (Elt F) → (⟨S400000, .i32⟩ : BufTy).Contents (Elt F)),
    ternary main_v31 main_v33 main_v1 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v34 main_v35 (broadcastInDim S400000x1 ![0] bcast_S400000_S400000x1_0 : (⟨S400000, .i32⟩ : BufTy).Contents (Elt F) → (⟨S400000x1, .i32⟩ : BufTy).Contents (Elt F)),
    binary main_v29 main_v35 main_v36 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    nullary main_cst_6 (constant S_ .f32 0x00000000#32),
    unary main_cst_6 main_v37 (broadcastInDim S100000x256 ![] bcast_S_S100000x256 : (⟨S_, .f32⟩ : BufTy).Contents (Elt F) → (⟨S100000x256, .f32⟩ : BufTy).Contents (Elt F)),
    unary main_v3 main_v38 (broadcastInDim S400000x1 ![0] bcast_S400000_S400000x1_0 : (⟨S400000, .i32⟩ : BufTy).Contents (Elt F) → (⟨S400000x1, .i32⟩ : BufTy).Contents (Elt F)),
    ternary main_v37 main_v38 main_v36 main_v39 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    nullary main_cst_7 (constant S_ .f32 0x3F800000#32),
    unary main_cst_7 main_v40 (broadcastInDim S400000 ![] bcast_S_S400000 : (⟨S_, .f32⟩ : BufTy).Contents (Elt F) → (⟨S400000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S400000x1 ![0] bcast_S400000_S400000x1_0 : (⟨S400000, .i32⟩ : BufTy).Contents (Elt F) → (⟨S400000x1, .i32⟩ : BufTy).Contents (Elt F)),
    ternary main_v41 main_v42 main_v40 main_v43 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x256 ![0, 1] bcast_S100000x1_S100000x256_0_1 : (⟨S100000x1, .f32⟩ : BufTy).Contents (Elt F) → (⟨S100000x256, .f32⟩ : BufTy).Contents (Elt F)),
    binary main_v39 main_v47 main_v48 (Host.divf : (⟨S100000x256, .f32⟩ : BufTy).Contents (Elt F) → (⟨S100000x256, .f32⟩ : BufTy).Contents (Elt F) → (⟨S100000x256, .f32⟩ : BufTy).Contents (Elt F)),
    binary main_v48 main_arg5 main_v49 ((fun l r => Host.dotGeneral dot_S100000x256_S256x129_S100000x129_1_0_0_1_n_n none l r) : (⟨S100000x256, .f32⟩ : BufTy).Contents (Elt F) → (⟨S256x129, .f32⟩ : BufTy).Contents (Elt F) → (⟨S100000x129, .f32⟩ : BufTy).Contents (Elt F)),
    unary main_arg7 main_v50 (broadcastInDim S1x129 ![1] bcast_S129_S1x129_1 : (⟨S129, .f32⟩ : BufTy).Contents (Elt F) → (⟨S1x129, .f32⟩ : BufTy).Contents (Elt F)),
    unary main_v50 main_v51 (broadcastInDim S100000x129 ![0, 1] bcast_S1x129_S100000x129_0_1 : (⟨S1x129, .f32⟩ : BufTy).Contents (Elt F) → (⟨S100000x129, .f32⟩ : BufTy).Contents (Elt F)),
    binary main_v49 main_v51 main_v52 (addf : (⟨S100000x129, .f32⟩ : BufTy).Contents (Elt F) → (⟨S100000x129, .f32⟩ : BufTy).Contents (Elt F) → (⟨S100000x129, .f32⟩ : BufTy).Contents (Elt F)),
    binary main_v29 main_arg6 main_v53 ((fun l r => Host.dotGeneral dot_S100000x256_S256x129_S100000x129_1_0_0_1_n_n none l r) : (⟨S100000x256, .f32⟩ : BufTy).Contents (Elt F) → (⟨S256x129, .f32⟩ : BufTy).Contents (Elt F) → (⟨S100000x129, .f32⟩ : BufTy).Contents (Elt F)),
    binary main_v52 main_v53 main_v54 (addf : (⟨S100000x129, .f32⟩ : BufTy).Contents (Elt F) → (⟨S100000x129, .f32⟩ : BufTy).Contents (Elt F) → (⟨S100000x129, .f32⟩ : BufTy).Contents (Elt F)) ]

/-- Operations 70–84: the row-wise log-softmax. -/
abbrev opsC : List (HloOp τ sig (Elt F)) :=
  [ TRef.nullary (TRef.of (T := ⟨S_, .f32⟩) main_call1_cst) (constant S_ .f32 0xFF800000#32),
    TRef.binary (TRef.of (T := ⟨S100000x129, .f32⟩) main_v54) (TRef.of (T := ⟨S_, .f32⟩) main_call1_cst) (TRef.of (T := ⟨S100000, .f32⟩) main_call1_v0) (fun x v => Host.reduce FloatOps.maximumf x v reducesTo_S100000x129_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x129, .f32⟩) main_call1_v4) (broadcastInDim S100000x129 ![0, 1] bcast_S100000x1_S100000x129_0_1),
    TRef.binary (TRef.of (T := ⟨S100000x129, .f32⟩) main_v54) (TRef.of (T := ⟨S100000x129, .f32⟩) main_call1_v4) (TRef.of (T := ⟨S100000x129, .f32⟩) main_call1_v5) subf,
    TRef.unary (TRef.of (T := ⟨S100000x129, .f32⟩) main_call1_v5) (TRef.of (T := ⟨S100000x129, .f32⟩) main_call1_v6) Host.exp,
    TRef.nullary (TRef.of (T := ⟨S_, .f32⟩) main_call1_cst_1) (constant S_ .f32 0x00000000#32),
    TRef.binary (TRef.of (T := ⟨S100000x129, .f32⟩) main_call1_v6) (TRef.of (T := ⟨S_, .f32⟩) main_call1_cst_1) (TRef.of (T := ⟨S100000, .f32⟩) main_call1_v7) (fun x v => Host.reduceAdd x v reducesTo_S100000x129_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x129, .f32⟩) main_call1_v10) (broadcastInDim S100000x129 ![0, 1] bcast_S100000x1_S100000x129_0_1),
    TRef.binary (TRef.of (T := ⟨S100000x129, .f32⟩) main_call1_v5) (TRef.of (T := ⟨S100000x129, .f32⟩) main_call1_v10) (TRef.of (T := ⟨S100000x129, .f32⟩) main_v55) subf ]

set_option maxRecDepth 8192 in
theorem ops_split : (ops : List (HloOp τ sig (Elt F))) = opsA ++ (opsB ++ opsC) := rfl

end Parts

/-- The edge list's two rows as the index columns the gathers and scatters take. -/
def srcVec (ei : (⟨S2x400000, .i32⟩ : BufTy).Contents (Elt Ideal)) : (⟨S400000, .i32⟩ : BufTy).Contents (Elt Ideal) :=
  shapeCast S400000 (extractStridedSlice S1x400000 ![0, 0] ei slices_S2x400000_S1x400000_0_0) shapeCasts_S1x400000_S400000
def dstVec (ei : (⟨S2x400000, .i32⟩ : BufTy).Contents (Elt Ideal)) : (⟨S400000, .i32⟩ : BufTy).Contents (Elt Ideal) :=
  shapeCast S400000 (extractStridedSlice S1x400000 ![1, 0] ei slices_S2x400000_S1x400000_1_0) shapeCasts_S1x400000_S400000
def srcCol (ei : (⟨S2x400000, .i32⟩ : BufTy).Contents (Elt Ideal)) : Col 400000 :=
  broadcastInDim S400000x1 ![0] bcast_S400000_S400000x1_0
    (select (cmpi .slt (srcVec ei) (broadcastInDim S400000 ![] bcast_S_S400000 (constantI S_ 32 0#32)))
      (addi (srcVec ei) (broadcastInDim S400000 ![] bcast_S_S400000 (constantI S_ 32 100000#32))) (srcVec ei))
def dstCol (ei : (⟨S2x400000, .i32⟩ : BufTy).Contents (Elt Ideal)) : Col 400000 :=
  broadcastInDim S400000x1 ![0] bcast_S400000_S400000x1_0 (dstVec ei)

theorem hN : 0 < 100000 := by decide

variable (m : (ℓ : Loc nD τ sig) → Buf (Elt Ideal) ℓ) (ρ : Dev nD → PrngReg)

/-- The buffers after the first part, and after the second. -/
def U1 (c : Dev nD) : Valuation τ sig (Elt Ideal) := after (opsA (F := Ideal)) (launchContents m c)
def U2 (c : Dev nD) : Valuation τ sig (Elt Ideal) := after (opsB (F := Ideal)) (U1 m c)

theorem after_split (c : Dev nD) : after (ops (F := Ideal)) (launchContents m c) = after (opsC (F := Ideal)) (U2 m c) := by
  rw [ops_split, StableHlo.after_append, StableHlo.after_append]
  rfl

/-- The first layer, rectified, and the network's function, aggregate-first, of the argument arrays at launch. -/
def hidden (c : Dev nD) : Mat 100000 256 :=
  reluArr (layerR hN (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)))
def result (c : Dev nD) : Mat 100000 129 :=
  netR hN (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

end Cert.ReferenceIdeal.RefValue

end
-- ==== Proof.RefStage1.lean ====
/-
  The reference after its first part: the index columns, and the first layer rectified — aggregate the raw
  rows at the destinations, divide by the clamped in-degree, project, add the bias and the root term, take the
  maximum with zero — as the array `hidden`.
-/
import proofs.«174269_j52905407152430_2_alg».proof.Proof.RefParts
import Idealize.ShloMosaic.Lib.StableHlo.Run

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.Sage

variable (m : (ℓ : Loc nD τ sig) → Buf (Elt Ideal) ℓ) (ρ : Dev nD → PrngReg)

/-! ## After the first part -/

theorem u1_arg0 (c : Dev nD) : U1 m c (Proc.devRef .tc main_arg0) = m ((c.tc : Thread nD τ).loc main_arg0) := by
  dsimp only [U1, opsA]
  after_results_simp <;> rfl

theorem u1_arg1 (c : Dev nD) : U1 m c (Proc.devRef .tc main_arg1) = m ((c.tc : Thread nD τ).loc main_arg1) := by
  dsimp only [U1, opsA]
  after_results_simp <;> rfl

theorem u1_arg2 (c : Dev nD) : U1 m c (Proc.devRef .tc main_arg2) = m ((c.tc : Thread nD τ).loc main_arg2) := by
  dsimp only [U1, opsA]
  after_results_simp <;> rfl

theorem u1_arg3 (c : Dev nD) : U1 m c (Proc.devRef .tc main_arg3) = m ((c.tc : Thread nD τ).loc main_arg3) := by
  dsimp only [U1, opsA]
  after_results_simp <;> rfl

theorem u1_arg4 (c : Dev nD) : U1 m c (Proc.devRef .tc main_arg4) = m ((c.tc : Thread nD τ).loc main_arg4) := by
  dsimp only [U1, opsA]
  after_results_simp <;> rfl

theorem u1_arg5 (c : Dev nD) : U1 m c (Proc.devRef .tc main_arg5) = m ((c.tc : Thread nD τ).loc main_arg5) := by
  dsimp only [U1, opsA]
  after_results_simp <;> rfl

theorem u1_arg6 (c : Dev nD) : U1 m c (Proc.devRef .tc main_arg6) = m ((c.tc : Thread nD τ).loc main_arg6) := by
  dsimp only [U1, opsA]
  after_results_simp <;> rfl

theorem u1_arg7 (c : Dev nD) : U1 m c (Proc.devRef .tc main_arg7) = m ((c.tc : Thread nD τ).loc main_arg7) := by
  dsimp only [U1, opsA]
  after_results_simp <;> rfl

theorem u1_v1 (c : Dev nD) : (U1 m c (Proc.devRef .tc main_v1) : (⟨S400000, .i32⟩ : BufTy).Contents (Elt Ideal)) = srcVec (m ((c.tc : Thread nD τ).loc main_arg1)) := by
  dsimp only [U1, opsA]
  after_results_simp
  rfl

theorem u1_v3 (c : Dev nD) : (U1 m c (Proc.devRef .tc main_v3) : (⟨S400000, .i32⟩ : BufTy).Contents (Elt Ideal)) = dstVec (m ((c.tc : Thread nD τ).loc main_arg1)) := by
  dsimp only [U1, opsA]
  after_results_simp
  rfl

set_option maxHeartbeats 4000000 in
theorem u1_v29 (c : Dev nD) : (U1 m c (Proc.devRef .tc main_v29) : (⟨S100000x256, .f32⟩ : BufTy).Contents (Elt Ideal)) = hidden m c := by
  dsimp only [U1, opsA]
  after_results_simp
  simp only [cast_eq]
  funext j
  obtain ⟨a, k, rfl⟩ : ∃ (a : Fin 100000) (k : Fin 256), j = ix2 a k := ⟨j 0, j 1, eq_ix2 j⟩
  refine (maximumf_apply _ _ (ix2 a k)).trans ?_
  refine congrArg (fun t => max t zero) ?_
  refine (layerHost_apply hN _ gather_S100000x512_S400000x1_S400000x512_1_0_n_n_0_1_1512.wf rfl _ scatter_S100000x512_S400000x1_S400000x512_1_0_0_1.wf rfl _ scatter_S100000_S400000x1_S400000_n_0_0_1.wf rfl dot_S100000x512_S512x256_S100000x256_1_0_0_1_n_n rfl rfl rfl rfl rfl rfl
      _ _ _ _ _ _ _ (fun _ => rfl) _ (fun _ => rfl) _ (fun _ => rfl) _ (fun _ => rfl) _ _ _ _ a k).trans ?_
  rfl

end Cert.ReferenceIdeal.RefValue

end
-- ==== Proof.RefStage2.lean ====
/-
  The reference after its second part: the second layer's logits at an entry, the same arrangement applied to
  the rectified first layer.
-/
import proofs.«174269_j52905407152430_2_alg».proof.Proof.RefStage1
import Idealize.ShloMosaic.Lib.StableHlo.Run

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.Sage

variable (m : (ℓ : Loc nD τ sig) → Buf (Elt Ideal) ℓ) (ρ : Dev nD → PrngReg)

/-! ## After the second part -/

theorem u2_arg0 (c : Dev nD) : U2 m c (Proc.devRef .tc main_arg0) = m ((c.tc : Thread nD τ).loc main_arg0) := by
  dsimp only [U2, opsB]
  after_results_simp
  exact u1_arg0 m c

theorem u2_arg1 (c : Dev nD) : U2 m c (Proc.devRef .tc main_arg1) = m ((c.tc : Thread nD τ).loc main_arg1) := by
  dsimp only [U2, opsB]
  after_results_simp
  exact u1_arg1 m c

theorem u2_arg2 (c : Dev nD) : U2 m c (Proc.devRef .tc main_arg2) = m ((c.tc : Thread nD τ).loc main_arg2) := by
  dsimp only [U2, opsB]
  after_results_simp
  exact u1_arg2 m c

theorem u2_arg3 (c : Dev nD) : U2 m c (Proc.devRef .tc main_arg3) = m ((c.tc : Thread nD τ).loc main_arg3) := by
  dsimp only [U2, opsB]
  after_results_simp
  exact u1_arg3 m c

theorem u2_arg4 (c : Dev nD) : U2 m c (Proc.devRef .tc main_arg4) = m ((c.tc : Thread nD τ).loc main_arg4) := by
  dsimp only [U2, opsB]
  after_results_simp
  exact u1_arg4 m c

theorem u2_arg5 (c : Dev nD) : U2 m c (Proc.devRef .tc main_arg5) = m ((c.tc : Thread nD τ).loc main_arg5) := by
  dsimp only [U2, opsB]
  after_results_simp
  exact u1_arg5 m c

theorem u2_arg6 (c : Dev nD) : U2 m c (Proc.devRef .tc main_arg6) = m ((c.tc : Thread nD τ).loc main_arg6) := by
  dsimp only [U2, opsB]
  after_results_simp
  exact u1_arg6 m c

theorem u2_arg7 (c : Dev nD) : U2 m c (Proc.devRef .tc main_arg7) = m ((c.tc : Thread nD τ).loc main_arg7) := by
  dsimp only [U2, opsB]
  after_results_simp
  exact u1_arg7 m c

set_option maxHeartbeats 4000000 in
theorem u2_v54 (c : Dev nD) (r : Fin 100000) (c' : Fin 129) :
    (U2 m c (Proc.devRef .tc main_v54) : (⟨S100000x129, .f32⟩ : BufTy).Contents (Elt Ideal)) (ix2 r c')
      = layerR hN (srcCol (m ((c.tc : Thread nD τ).loc main_arg1))) (dstCol (m ((c.tc : Thread nD τ).loc main_arg1))) (hidden m c) (m ((c.tc : Thread nD τ).loc main_arg5)) (m ((c.tc : Thread nD τ).loc main_arg6)) (m ((c.tc : Thread nD τ).loc main_arg7)) r c' := by
  dsimp only [U2, opsB]
  after_results_simp
  rw [u1_v29 m c, u1_v1 m c, u1_v3 m c, u1_arg5 m c, u1_arg6 m c, u1_arg7 m c]
  refine (layerHost_apply hN _ gather_S100000x256_S400000x1_S400000x256_1_0_n_n_0_1_1256.wf rfl _ scatter_S100000x256_S400000x1_S400000x256_1_0_0_1.wf rfl _ scatter_S100000_S400000x1_S400000_n_0_0_1.wf rfl dot_S100000x256_S256x129_S100000x129_1_0_0_1_n_n rfl rfl rfl rfl rfl rfl
      _ _ _ _ _ _ _ (fun _ => rfl) _ (fun _ => rfl) _ (fun _ => rfl) _ (fun _ => rfl) _ _ _ _ r c').trans ?_
  rfl

end Cert.ReferenceIdeal.RefValue

end
-- ==== Proof.RefValue.lean ====
/-
  The idealized reference's result as a function of its arguments: the third part of its @main is the row-wise
  log-softmax of the logits the second part left, so the result array is the network's function, aggregate-first,
  of the argument arrays; and its run: every weakly fair execution terminates there, the arguments unchanged.
-/
import proofs.«174269_j52905407152430_2_alg».proof.Proof.RefStage2
import Idealize.ShloMosaic.Lib.StableHlo.Run

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.Sage Cert.LibHostReads

variable (m : (ℓ : Loc nD τ sig) → Buf (Elt Ideal) ℓ) (ρ : Dev nD → PrngReg)

/-! ## The result -/

/-- The logits the second part left, at the value's type. -/
def logits (c : Dev nD) : (⟨S100000x129, .f32⟩ : BufTy).Contents (Elt Ideal) :=
  (TRef.of (T := ⟨S100000x129, .f32⟩) main_v54).ofBuf (U2 m c (Proc.devRef .tc main_v54))

theorem logits_apply (c : Dev nD) (r : Fin 100000) (c' : Fin 129) : logits m c (ix2 r c')
    = layerR hN (srcCol (m ((c.tc : Thread nD τ).loc main_arg1))) (dstCol (m ((c.tc : Thread nD τ).loc main_arg1))) (hidden m c) (m ((c.tc : Thread nD τ).loc main_arg5)) (m ((c.tc : Thread nD τ).loc main_arg6)) (m ((c.tc : Thread nD τ).loc main_arg7)) r c' :=
  u2_v54 m c r c'

set_option maxHeartbeats 4000000 in
/-- THE RESULT: the operations' composed term at the result buffer is the network's function of the arguments
    (carried to the buffer's type). -/
theorem out_eq (c : Dev nD) :
    after (ops (F := Ideal)) (launchContents m c) (Proc.devRef .tc main_v55)
      = (TRef.of (T := ⟨S100000x129, .f32⟩) main_v55).toBuf (result m c) := by
  rw [after_split]
  dsimp only [opsC]
  after_results_simp
  refine congrArg _ ?_
  simp only [ofBuf_toBuf]
  funext i
  obtain ⟨r, q, rfl⟩ : ∃ (r : Fin 100000) (q : Fin 129), i = ix2 r q := ⟨i 0, i 1, eq_ix2 i⟩
  refine (lsmHost_apply (m := 100000) (n := 129) (logits m c)
    (constant (F := Ideal) S_ .f32 0xFF800000#32) (constant (F := Ideal) S_ .f32 0x00000000#32)
    (broadcastInDim S100000 ![] bcast_S_S100000 (constant (F := Ideal) S_ .f32 0xFF800000#32))
    (fun _ => rfl) (fun _ => rfl) (fun _ => rfl) reducesTo_S100000x129_S100000_d1 h_S_
    bcast_S100000_S100000x1_0 bcast_S100000x1_S100000x129_0_1 r q).trans ?_
  show lsm _ q = lsm (fun c' => layerR hN (srcCol (m ((c.tc : Thread nD τ).loc main_arg1))) (dstCol (m ((c.tc : Thread nD τ).loc main_arg1))) (hidden m c) (m ((c.tc : Thread nD τ).loc main_arg5)) (m ((c.tc : Thread nD τ).loc main_arg6)) (m ((c.tc : Thread nD τ).loc main_arg7)) r c') q
  exact congrArg (fun L => lsm L q) (funext fun c' => logits_apply m c r c')

/-- At the result's buffer the two types are one. -/
theorem toBuf_v55 (x : (⟨S100000x129, .f32⟩ : BufTy).Contents (Elt Ideal)) :
    (TRef.of (T := ⟨S100000x129, .f32⟩) main_v55).toBuf x = x := rfl

set_option maxRecDepth 8192 in
set_option maxHeartbeats 33600000 in
/-- Every weakly fair execution of the reference's @main terminates with the result at the network's function of
    the arguments and the arguments unchanged. -/
theorem run :
    θ_run defs (onTc (τ := τ) (main (F := Ideal))) ⟨m, fun _ => 0, ρ⟩ fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans ((out_eq m c).trans (toBuf_v55 _)),
      (h c main_arg0).trans (by rw [after_split]; dsimp only [opsC]; after_results_simp; exact u2_arg0 m c),
      (h c main_arg1).trans (by rw [after_split]; dsimp only [opsC]; after_results_simp; exact u2_arg1 m c),
      (h c main_arg2).trans (by rw [after_split]; dsimp only [opsC]; after_results_simp; exact u2_arg2 m c),
      (h c main_arg3).trans (by rw [after_split]; dsimp only [opsC]; after_results_simp; exact u2_arg3 m c),
      (h c main_arg4).trans (by rw [after_split]; dsimp only [opsC]; after_results_simp; exact u2_arg4 m c),
      (h c main_arg5).trans (by rw [after_split]; dsimp only [opsC]; after_results_simp; exact u2_arg5 m c),
      (h c main_arg6).trans (by rw [after_split]; dsimp only [opsC]; after_results_simp; exact u2_arg6 m c),
      (h c main_arg7).trans (by rw [after_split]; dsimp only [opsC]; after_results_simp; exact u2_arg7 m c)⟩)
    (run_seq scopedRefs_eq scopedSems_eq defs main (fun _ => ops) main_eq (fun _ => ops_sub) m ρ)

end Cert.ReferenceIdeal.RefValue

end
-- ==== Proof.Finite.lean ====
/-
  From the precondition to real entries. The precondition says, of every float argument, that all entries
  have absolute value below plus infinity. On the extended reals `max x (-x) < ⊤` excludes both infinities,
  so every entry is (the coercion of) a real number. The precondition is a conjunction of seven such
  statements, each an `and`-reduction of the entrywise comparison.
-/
import proofs.«174269_j52905407152430_2_alg».proof.Pre_finite_inputs
import proofs.«174269_j52905407152430_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic Idealize.ShloMosaic.ValueIdx

namespace Cert.Finite

/-- An extended real whose absolute value is below the float pattern of plus infinity is a real number. -/
theorem real_of_abs_lt (x : EReal) (h : Ideal.cmp .olt (max x (-x)) (Ideal.ofBits .f32 0x7F800000#32) = 1#1) :
    ∃ y : ℝ, x = (y : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe y => exact ⟨y, rfl⟩
  | top => simp at hlt

open Cert.Pre_finite_inputs in
instance : Subsingleton S_.Idx := ⟨fun a b => funext fun d => d.elim0⟩

open Cert.Pre_finite_inputs in
/-- Under the precondition every entry of every float argument is a real number. -/
theorem all_real (a0 : FVec Ideal S100000x512 .f32) (a1 : IVec S2x400000 32) (a2 a3 : FVec Ideal S512x256 .f32)
    (a4 : FVec Ideal S256 .f32) (a5 a6 : FVec Ideal S256x129 .f32) (a7 : FVec Ideal S129 .f32)
    (h : fn (F := Ideal) a0 a1 a2 a3 a4 a5 a6 a7 = fun _ => 1#1) :
    (∀ i, ∃ y : ℝ, a0 i = (y : EReal)) ∧ (∀ i, ∃ y : ℝ, a2 i = (y : EReal)) ∧ (∀ i, ∃ y : ℝ, a3 i = (y : EReal))
      ∧ (∀ i, ∃ y : ℝ, a4 i = (y : EReal)) ∧ (∀ i, ∃ y : ℝ, a5 i = (y : EReal)) ∧ (∀ i, ∃ y : ℝ, a6 i = (y : EReal))
      ∧ (∀ i, ∃ y : ℝ, a7 i = (y : EReal)) := by
  have h0 := congrFun h ix0
  dsimp only [fn, fn_part1] at h0
  obtain ⟨h6, r7⟩ := IntOp.andi_eq_one.mp h0
  obtain ⟨h5, r6⟩ := IntOp.andi_eq_one.mp h6
  obtain ⟨h4, r5⟩ := IntOp.andi_eq_one.mp h5
  obtain ⟨h3, r4⟩ := IntOp.andi_eq_one.mp h4
  obtain ⟨h2, r3⟩ := IntOp.andi_eq_one.mp h3
  obtain ⟨r0, r2⟩ := IntOp.andi_eq_one.mp h2
  exact ⟨fun i => real_of_abs_lt _ (Host.reduce_andi_all _ _ _ _ _ r0 i),
    fun i => real_of_abs_lt _ (Host.reduce_andi_all _ _ _ _ _ r2 i),
    fun i => real_of_abs_lt _ (Host.reduce_andi_all _ _ _ _ _ r3 i),
    fun i => real_of_abs_lt _ (Host.reduce_andi_all _ _ _ _ _ r4 i),
    fun i => real_of_abs_lt _ (Host.reduce_andi_all _ _ _ _ _ r5 i),
    fun i => real_of_abs_lt _ (Host.reduce_andi_all _ _ _ _ _ r6 i),
    fun i => real_of_abs_lt _ (Host.reduce_andi_all _ _ _ _ _ r7 i)⟩

end Cert.Finite

end
-- ==== Proof.lean ====
/-
  The certificate: a two-layer mean-aggregating graph convolution with a row-wise log-softmax, computed by four
  row-blocked pipelines around host gathers and scatters, against the plain array program.

  Both programs compute `log_softmax (layer₂ (relu (layer₁ x)))`. The kernel projects the node features with the
  left weights BEFORE taking the rows at the edge sources and summing them into the edge destinations, and scales
  the aggregate by the reciprocal of the clamped in-degree; the reference aggregates the raw rows, divides, and
  projects after. On real entries the two arrangements of a layer are the same real number (a finite sum commutes
  with a product by a weight and with a division by a nonzero number, and two finite sums can be exchanged); the
  precondition makes every float entry real, the first layer's output is then real, so its rectification is, so
  the second layers agree as well, and the log-softmax is the same function of equal rows. The index columns are
  computed from the edge list by the same operations in both programs.

  The three frames: the two kernels' are the generated frame certificates; the reference's is its run with the
  result dropped. The idealization rewrote no operation, so `preserves` has nothing to state.
-/
import proofs.«174269_j52905407152430_2_alg».proof.Defs
import proofs.«174269_j52905407152430_2_alg».proof.Proof.Gen.Kernel
import proofs.«174269_j52905407152430_2_alg».proof.Proof.Gen.Kernel.Skeleton
import proofs.«174269_j52905407152430_2_alg».proof.Proof.Gen.Kernel.Launch
import proofs.«174269_j52905407152430_2_alg».proof.Proof.Gen.Kernel.Points
import proofs.«174269_j52905407152430_2_alg».proof.Proof.Gen.Kernel.Frame
import proofs.«174269_j52905407152430_2_alg».proof.Proof.Gen.KernelIdeal
import proofs.«174269_j52905407152430_2_alg».proof.Proof.Gen.KernelIdeal.Skeleton
import proofs.«174269_j52905407152430_2_alg».proof.Proof.Gen.KernelIdeal.Launch
import proofs.«174269_j52905407152430_2_alg».proof.Proof.Gen.KernelIdeal.Points
import proofs.«174269_j52905407152430_2_alg».proof.Proof.Gen.KernelIdeal.Frame
import proofs.«174269_j52905407152430_2_alg».proof.Proof.Gen.ReferenceIdeal
import proofs.«174269_j52905407152430_2_alg».proof.Proof.Gen.Pre_finite_inputs
import proofs.«174269_j52905407152430_2_alg».proof.Proof.KernelRun
import proofs.«174269_j52905407152430_2_alg».proof.Proof.RefValue
import proofs.«174269_j52905407152430_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Sage Cert.IdealReal

/-- The two programs compute the index columns from the edge list by the same operations. -/
theorem src_eq (ei : (⟨Cert.KernelIdeal.S2x400000, .i32⟩ : BufTy).Contents (Elt Ideal)) :
    Cert.ReferenceIdeal.RefValue.srcCol ei = Cert.KernelIdeal.HostValue.srcCol ei := rfl
theorem dst_eq (ei : (⟨Cert.KernelIdeal.S2x400000, .i32⟩ : BufTy).Contents (Elt Ideal)) :
    Cert.ReferenceIdeal.RefValue.dstCol ei = Cert.KernelIdeal.HostValue.dstCol ei := rfl

/-- Under the precondition, from memories agreeing on the arguments, the two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hPre : Cert.Pre_KernelIdeal m) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.RefValue.result m' c = Cert.KernelIdeal.HostValue.result m c := by
  show netR Cert.ReferenceIdeal.RefValue.hN (Cert.ReferenceIdeal.RefValue.srcCol (m' ((c.tc : Thread Cert.ReferenceIdeal.nD Cert.ReferenceIdeal.τ).loc Cert.ReferenceIdeal.main_arg1))) (Cert.ReferenceIdeal.RefValue.dstCol (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
    = netK Cert.KernelIdeal.HostValue.hN (Cert.KernelIdeal.HostValue.srcCol (m ((c.tc : Thread Cert.KernelIdeal.nD Cert.KernelIdeal.τ).loc Cert.KernelIdeal.main_arg1))) (Cert.KernelIdeal.HostValue.dstCol (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
  rw [h0, h1, h2, h3, h4, h5, h6, h7, src_eq, dst_eq]
  obtain ⟨r0, r2, r3, r4, r5, r6, r7⟩ := Cert.Finite.all_real _ _ _ _ _ _ _ _ (hPre c)
  choose X hX using r0
  choose W1l hW1l using r2
  choose W1r hW1r using r3
  choose B1 hB1 using r4
  choose W2l hW2l using r5
  choose W2r hW2r using r6
  choose B2 hB2 using r7
  rw [eq_lift2 (m ((c.tc : Thread Cert.KernelIdeal.nD Cert.KernelIdeal.τ).loc Cert.KernelIdeal.main_arg0)) (fun a b => X (ix2 a b)) (fun a b => hX _),
    eq_lift2 (m ((c.tc : Thread Cert.KernelIdeal.nD Cert.KernelIdeal.τ).loc Cert.KernelIdeal.main_arg2)) (fun a b => W1l (ix2 a b)) (fun a b => hW1l _),
    eq_lift2 (m ((c.tc : Thread Cert.KernelIdeal.nD Cert.KernelIdeal.τ).loc Cert.KernelIdeal.main_arg3)) (fun a b => W1r (ix2 a b)) (fun a b => hW1r _),
    eq_lift1 (m ((c.tc : Thread Cert.KernelIdeal.nD Cert.KernelIdeal.τ).loc Cert.KernelIdeal.main_arg4)) (fun a => B1 (ix1 a)) (fun a => hB1 _),
    eq_lift2 (m ((c.tc : Thread Cert.KernelIdeal.nD Cert.KernelIdeal.τ).loc Cert.KernelIdeal.main_arg5)) (fun a b => W2l (ix2 a b)) (fun a b => hW2l _),
    eq_lift2 (m ((c.tc : Thread Cert.KernelIdeal.nD Cert.KernelIdeal.τ).loc Cert.KernelIdeal.main_arg6)) (fun a b => W2r (ix2 a b)) (fun a b => hW2r _),
    eq_lift1 (m ((c.tc : Thread Cert.KernelIdeal.nD Cert.KernelIdeal.τ).loc Cert.KernelIdeal.main_arg7)) (fun a => B2 (ix1 a)) (fun a => hB2 _)]
  exact (net_eq _ _ _ _ _ _ _ _ _ _).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- At the ideal instance both programs end with the network's function of the arguments in their result
    arrays: the kernel's run names it in the project-first arrangement, the reference's in the aggregate-first
    one, and under the precondition they are one array. -/
theorem algebraic : Cert.algebraic_KernelIdeal_ReferenceIdeal := by
  intro m ρ m' ρ' hPre hagree
  refine ⟨fun c => Cert.KernelIdeal.HostValue.result m c, Cert.KernelIdeal.HostValue.run m ρ, ?_⟩
  refine (θ_run Cert.ReferenceIdeal.defs _ _).mono (fun _ h c => ⟨(h c).1.trans ?_, (h c).2⟩) (Cert.ReferenceIdeal.RefValue.run m' ρ')
  obtain ⟨h0, h1, h2, h3, h4, h5, h6, h7⟩ := hagree c
  exact results_eq m m' hPre c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
